-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S3x4096x4096 : Shape := ⟨3, ![3, 4096, 4096]⟩
abbrev S3x512x512 : Shape := ⟨3, ![3, 512, 512]⟩
abbrev S512 : Shape := ⟨1, ![512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S3x4096x4096 : S_.BroadcastsInDim S3x4096x4096 (![] : Fin 0 → Fin S3x4096x4096.rank)
  reducesTo_S3x4096x4096_S_d0_1_2 : S3x4096x4096.ReducesTo [0, 1, 2] S_
  bcast_S_S3x512x512 : S_.BroadcastsInDim S3x512x512 (![] : Fin 0 → Fin S3x512x512.rank)
  reducesTo_S3x512x512_S_d0_1_2 : S3x512x512.ReducesTo [0, 1, 2] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S4096x512 .f32) (main_arg1 : FVec F S3x4096x4096 .f32) (main_arg2 : FVec F S3x512x512 .f32) (main_arg3 : FVec F S512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S3x4096x4096 .f32 := Host.absf main_arg1
  let main_cst_0 : FVec F S_ .f32 := constant S_ .f32 0x7F800000#32
  let main_v5 : FVec F S3x4096x4096 .f32 := broadcastInDim S3x4096x4096 ![] bcast_S_S3x4096x4096 main_cst_0
  let main_v6 : IVec S3x4096x4096 1 := cmpf .olt main_v4 main_v5
  let main_c_1 : IVec S_ 1 := constantI S_ 1 1#1
  let main_v7 : IVec S_ 1 := (fun x v => Host.reduce IntOp.andi x v reducesTo_S3x4096x4096_S_d0_1_2 h_S_) main_v6 main_c_1
  let main_v8 : IVec S_ 1 := andi main_v3 main_v7
  let main_v9 : FVec F S3x512x512 .f32 := Host.absf main_arg2
  let main_cst_2 : FVec F S_ .f32 := constant S_ .f32 0x7F800000#32
  let main_v10 : FVec F S3x512x512 .f32 := broadcastInDim S3x512x512 ![] bcast_S_S3x512x512 main_cst_2
  let main_v11 : IVec S3x512x512 1 := cmpf .olt main_v9 main_v10
  let main_c_3 : IVec S_ 1 := constantI S_ 1 1#1
  let main_v12 : IVec S_ 1 := (fun x v => Host.reduce IntOp.andi x v reducesTo_S3x512x512_S_d0_1_2 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S4096x512 : Shape := ⟨2, ![4096, 512]⟩
abbrev S3x4096x4096 : Shape := ⟨3, ![3, 4096, 4096]⟩
abbrev S3x512x512 : Shape := ⟨3, ![3, 512, 512]⟩
abbrev S512 : Shape := ⟨1, ![512]⟩
abbrev S1x512 : Shape := ⟨2, ![1, 512]⟩
abbrev S1x512x2048 : Shape := ⟨3, ![1, 512, 2048]⟩
abbrev S512x512 : Shape := ⟨2, ![512, 512]⟩
abbrev S12288x512 : Shape := ⟨2, ![12288, 512]⟩
abbrev S1x512x512 : Shape := ⟨3, ![1, 512, 512]⟩
abbrev S512x2048 : Shape := ⟨2, ![512, 2048]⟩
abbrev S2048x512 : Shape := ⟨2, ![2048, 512]⟩

abbrev nBuf : Space → Nat
  | .hbm => 6
  | .vmem => 10
  | .smem => 0
  | _ => 0

abbrev bufTy : (tb : Table) → Fin (tcTables nBuf tb) → BufTy
  | .hbm, ⟨0, _⟩ => ⟨S4096x512, .f32⟩
  | .hbm, ⟨1, _⟩ => ⟨S3x4096x4096, .f32⟩
  | .hbm, ⟨2, _⟩ => ⟨S3x512x512, .f32⟩
  | .hbm, ⟨3, _⟩ => ⟨S512, .f32⟩
  | .hbm, ⟨4, _⟩ => ⟨S1x512, .f32⟩
  | .hbm, ⟨5, _⟩ => ⟨S4096x512, .f32⟩
  | .local _ .vmem, ⟨0, _⟩ => ⟨S4096x512, .f32⟩
  | .local _ .vmem, ⟨1, _⟩ => ⟨S3x512x512, .f32⟩
  | .local _ .vmem, ⟨2, _⟩ => ⟨S1x512x2048, .f32⟩
  | .local _ .vmem, ⟨3, _⟩ => ⟨S1x512x2048, .f32⟩
  | .local _ .vmem, ⟨4, _⟩ => ⟨S1x512x2048, .f32⟩
  | .local _ .vmem, ⟨5, _⟩ => ⟨S1x512x2048, .f32⟩
  | .local _ .vmem, ⟨6, _⟩ => ⟨S1x512, .f32⟩
  | .local _ .vmem, ⟨7, _⟩ => ⟨S512x512, .f32⟩
  | .local _ .vmem, ⟨8, _⟩ => ⟨S512x512, .f32⟩
  | .local _ .vmem, ⟨9, _⟩ => ⟨S12288x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 3], ![false, false]⟩

def k0_off1 (i : grid0.Coords) : Fin 2 → Nat :=
  let arg1 : BitVec 32 := BitVec.ofNat 32 (i 1).val
  let c4096_i32 : BitVec 32 := 4096#32
  let v11 : BitVec 32 := Scalar.muli arg1 c4096_i32
  let v12 : Index := Scalar.indexCast v11
  let c0_7 : Index := 0#32
  ![v12.toNat, 0]
def k0_off2 (i : grid0.Coords) : Fin 2 → Nat :=
  let arg1 : BitVec 32 := BitVec.ofNat 32 (i 1).val
  let c4096_i32_8 : BitVec 32 := 4096#32
  let v14 : BitVec 32 := Scalar.muli arg1 c4096_i32_8
  let c2048_i32 : BitVec 32 := 2048#32
  let v15 : BitVec 32 := Scalar.addi v14 c2048_i32
  let v16 : Index := Scalar.indexCast v15
  let c0_9 : Index := 0#32
  ![v16.toNat, 0]
def k0_cond2 (i : grid0.Coords) : BitVec 1 :=
  let arg1 : BitVec 32 := BitVec.ofNat 32 (i 1).val
  let c0_i32_11 : BitVec 32 := 0#32
  let v21 : BitVec 1 := Scalar.cmpi .eq arg1 c0_i32_11
  let v22 : BitVec 32 := Scalar.extui v21
  let c0_i32_12 : BitVec 32 := 0#32
  let v23 : BitVec 1 := Scalar.cmpi .ne v22 c0_i32_12
  v23

def k0_cond3 (i : grid0.Coords) : BitVec 1 :=
  let arg1 : BitVec 32 := BitVec.ofNat 32 (i 1).val
  let c0_i32_13 : BitVec 32 := 0#32
  let v24 : BitVec 1 := Scalar.cmpi .sgt arg1 c0_i32_13
  let v25 : BitVec 32 := Scalar.extui v24
  let c0_i32_14 : BitVec 32 := 0#32
  let v26 : BitVec 1 := Scalar.cmpi .ne v25 c0_i32_14
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, arg0.toNat, c1_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S3x512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S512_S1x512 : S512.ShapeCasts S1x512
  inb_S4096x512_S4096x512_0_0 : ∀ a, (![0, 0] : Fin 2 → Nat) a + S4096x512.size a ≤ S4096x512.size a
  h_S4096x512 : 0 < S4096x512.numel
  bitsLt_bf16_f32 : FTy.bits .bf16 < FTy.bits .f32
  inb_S3x512x512_S1x512x512_0_0_0 : ∀ a, (![0, 0, 0] : Fin 3 → Nat) a + S1x512x512.size a ≤ S3x512x512.size a
  h_S1x512x512 : 0 < S1x512x512.numel
  shapeCasts_S1x512x512_S512x512 : S1x512x512.ShapeCasts S512x512
  inb_S12288x512_S4096x512_0_0 : ∀ a, (![0, 0] : Fin 2 → Nat) a + S4096x512.size a ≤ S12288x512.size a
  shapeCasts_S4096x512_S4096x512 : S4096x512.ShapeCasts S4096x512
  packedbf16_S12288x512_S4096x512_0_0 : (Rect.unit (s := S12288x512) ![0, 0] S4096x512.size inb_S12288x512_S4096x512_0_0).PackedRows (EltTy.packing .bf16)
  inb_S3x512x512_S1x512x512_1_0_0 : ∀ a, (![1, 0, 0] : Fin 3 → Nat) a + S1x512x512.size a ≤ S3x512x512.size a
  inb_S12288x512_S4096x512_4096_0 : ∀ a, (![4096, 0] : Fin 2 → Nat) a + S4096x512.size a ≤ S12288x512.size a
  packedbf16_S12288x512_S4096x512_4096_0 : (Rect.unit (s := S12288x512) ![4096, 0] S4096x512.size inb_S12288x512_S4096x512_4096_0).PackedRows (EltTy.packing .bf16)
  inb_S3x512x512_S1x512x512_2_0_0 : ∀ a, (![2, 0, 0] : Fin 3 → Nat) a + S1x512x512.size a ≤ S3x512x512.size a
  inb_S12288x512_S4096x512_8192_0 : ∀ a, (![8192, 0] : Fin 2 → Nat) a + S4096x512.size a ≤ S12288x512.size a
  packedbf16_S12288x512_S4096x512_8192_0 : (Rect.unit (s := S12288x512) ![8192, 0] S4096x512.size inb_S12288x512_S4096x512_8192_0).PackedRows (EltTy.packing .bf16)
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  h_S2048x512 : 0 < S2048x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  dot_S4096x512_S512x512_S4096x512_1_0_0_1_n_n_wf : DotDims.WF S4096x512 S512x512 S4096x512 [1] [0] [0] [1] [] []
  dot_S512x2048_S2048x512_S512x512_1_0_0_1_n_n_wf : DotDims.WF S512x2048 S2048x512 S512x512 [1] [0] [0] [1] [] []
  hrank0 : 0 < grid0.rank
  k0_off1_inb : ∀ i : grid0.Coords, ∀ a, (k0_off1 i) a + S2048x512.size a ≤ S12288x512.size a
  k0_off2_inb : ∀ i : grid0.Coords, ∀ a, (k0_off2 i) a + S2048x512.size a ≤ S12288x512.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S4096x512.size a
  hwx0_0 : ∀ i : grid0.Coords, EltTy.bits .f32 = 32 ∨ (Rect.block (s := S4096x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x512x512.size a ≤ S3x512x512.size a
  hwx0_1 : ∀ i : grid0.Coords, EltTy.bits .f32 = 32 ∨ (Rect.block (s := S3x512x512) S3x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x2048.size a ≤ S3x4096x4096.size a
  hwx0_2 : ∀ i : grid0.Coords, EltTy.bits .f32 = 32 ∨ (Rect.block (s := S3x4096x4096) S1x512x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S3x4096x4096.size a
  hwx0_3 : ∀ i : grid0.Coords, EltTy.bits .f32 = 32 ∨ (Rect.block (s := S3x4096x4096) S1x512x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S4096x512.size a
  hwx0_5 : ∀ i : grid0.Coords, EltTy.bits .f32 = 32 ∨ (Rect.block (s := S4096x512) S512x512.size (cc0_transform_5 i) (hinb0_5 i)).WholeWords (EltTy.packing .f32)

variable [Facts₀]

def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_arg0) S4096x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S3x512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) && !(k0_cond3 i == 1#1) | ⟨_ + 6, h⟩ => absurd h (Nat.not_lt.2 (Nat.le_add_left _ _))

class Facts : Prop extends Facts₀ where

variable [Facts]
-- ==== ReferenceIdeal.lean ====
abbrev S4096x512 : Shape := ⟨2, ![4096, 512]⟩
abbrev S3x4096x4096 : Shape := ⟨3, ![3, 4096, 4096]⟩
abbrev S3x512x512 : Shape := ⟨3, ![3, 512, 512]⟩
abbrev S512 : Shape := ⟨1, ![512]⟩
abbrev S1x512x512 : Shape := ⟨3, ![1, 512, 512]⟩
abbrev S512x512 : Shape := ⟨2, ![512, 512]⟩
abbrev S1x4096x4096 : Shape := ⟨3, ![1, 4096, 4096]⟩
abbrev S4096x4096 : Shape := ⟨2, ![4096, 4096]⟩
abbrev S4096x512x1 : Shape := ⟨3, ![4096, 512, 1]⟩
abbrev S4096x512x3 : Shape := ⟨3, ![4096, 512, 3]⟩
abbrev S_ : Shape := ⟨0, ![]⟩
abbrev S1x512 : Shape := ⟨2, ![1, 512]⟩

abbrev nBuf : Space → Nat
  | .hbm => 34
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S3x4096x4096, .f32⟩
  | .hbm, ⟨2, _⟩ => ⟨S3x512x512, .f32⟩
  | .hbm, ⟨3, _⟩ => ⟨S512, .f32⟩
  | .hbm, ⟨4, _⟩ => ⟨S1x512x512, .f32⟩
  | .hbm, ⟨5, _⟩ => ⟨S512x512, .f32⟩
  | .hbm, ⟨6, _⟩ => ⟨S4096x512, .f32⟩
  | .hbm, ⟨7, _⟩ => ⟨S1x4096x4096, .f32⟩
  | .hbm, ⟨8, _⟩ => ⟨S4096x4096, .f32⟩
  | .hbm, ⟨9, _⟩ => ⟨S4096x512, .f32⟩
  | .hbm, ⟨10, _⟩ => ⟨S1x512x512, .f32⟩
  | .hbm, ⟨11, _⟩ => ⟨S512x512, .f32⟩
  | .hbm, ⟨12, _⟩ => ⟨S4096x512, .f32⟩
  | .hbm, ⟨13, _⟩ => ⟨S1x4096x4096, .f32⟩
  | .hbm, ⟨14, _⟩ => ⟨S4096x4096, .f32⟩
  | .hbm, ⟨15, _⟩ => ⟨S4096x512, .f32⟩
  | .hbm, ⟨16, _⟩ => ⟨S1x512x512, .f32⟩
  | .hbm, ⟨17, _⟩ => ⟨S512x512, .f32⟩
  | .hbm, ⟨18, _⟩ => ⟨S4096x512, .f32⟩
  | .hbm, ⟨19, _⟩ => ⟨S1x4096x4096, .f32⟩
  | .hbm, ⟨20, _⟩ => ⟨S4096x4096, .f32⟩
  | .hbm, ⟨21, _⟩ => ⟨S4096x512, .f32⟩
  | .hbm, ⟨22, _⟩ => ⟨S4096x512x1, .f32⟩
  | .hbm, ⟨23, _⟩ => ⟨S4096x512x1, .f32⟩
  | .hbm, ⟨24, _⟩ => ⟨S4096x512x1, .f32⟩
  | .hbm, ⟨25, _⟩ => ⟨S4096x512x3, .f32⟩
  | .hbm, ⟨26, _⟩ => ⟨S_, .f32⟩
  | .hbm, ⟨27, _⟩ => ⟨S4096x512x3, .f32⟩
  | .hbm, ⟨28, _⟩ => ⟨S4096x512x3, .f32⟩
  | .hbm, ⟨29, _⟩ => ⟨S_, .f32⟩
  | .hbm, ⟨30, _⟩ => ⟨S4096x512, .f32⟩
  | .hbm, ⟨31, _⟩ => ⟨S1x512, .f32⟩
  | .hbm, ⟨32, _⟩ => ⟨S4096x512, .f32⟩
  | .hbm, ⟨33, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst : Ref sig .tc := ⟨.hbm, 26, rfl⟩
abbrev main_v22 : Ref sig .tc := ⟨.hbm, 27, rfl⟩
abbrev main_v23 : Ref sig .tc := ⟨.hbm, 28, rfl⟩
abbrev main_cst_0 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩

abbrev nD : Nat := 1
abbrev τ : Topo := Topo.v7x

variable {F : FTy → Type} [FloatOps F]

class Facts₀ : Prop where
  slices_S3x512x512_S1x512x512_0_0_0 : S3x512x512.Slices ![0, 0, 0] S1x512x512
  shapeCasts_S1x512x512_S512x512 : S1x512x512.ShapeCasts S512x512
  slices_S3x4096x4096_S1x4096x4096_0_0_0 : S3x4096x4096.Slices ![0, 0, 0] S1x4096x4096
  shapeCasts_S1x4096x4096_S4096x4096 : S1x4096x4096.ShapeCasts S4096x4096
  slices_S3x512x512_S1x512x512_1_0_0 : S3x512x512.Slices ![1, 0, 0] S1x512x512
  slices_S3x4096x4096_S1x4096x4096_1_0_0 : S3x4096x4096.Slices ![1, 0, 0] S1x4096x4096
  slices_S3x512x512_S1x512x512_2_0_0 : S3x512x512.Slices ![2, 0, 0] S1x512x512
  slices_S3x4096x4096_S1x4096x4096_2_0_0 : S3x4096x4096.Slices ![2, 0, 0] S1x4096x4096
  bcast_S4096x512_S4096x512x1_0_1 : S4096x512.BroadcastsInDim S4096x512x1 (![0, 1] : Fin 2 → Fin S4096x512x1.rank)
  concatenates_S4096x512x1_S4096x512x1_S4096x512x1_S4096x512x3_d2 : Shape.Concatenates [S4096x512x1, S4096x512x1, S4096x512x1] S4096x512x3 2
  bcast_S_S4096x512x3 : S_.BroadcastsInDim S4096x512x3 (![] : Fin 0 → Fin S4096x512x3.rank)
  reducesTo_S4096x512x3_S4096x512_d2 : S4096x512x3.ReducesTo [2] S4096x512
  h_S_ : 0 < S_.numel
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  dot_S4096x512_S512x512_S4096x512_1_0_0_1_n_n_wf : DotDims.WF S4096x512 S512x512 S4096x512 [1] [0] [0] [1] [] []
  dot_S4096x4096_S4096x512_S4096x512_1_0_0_1_n_n_wf : DotDims.WF S4096x4096 S4096x512 S4096x512 [1] [0] [0] [1] [] []

variable [Facts₀]

def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S4096x4096_S4096x512_S4096x512_1_0_0_1_n_n : DotDims S4096x4096 S4096x512 S4096x512 where
  lhsContracting := [1]
  rhsContracting := [0]
  lhsNonContracting := [0]
  rhsNonContracting := [1]
  lhsBatch := []
  rhsBatch := []
  wf := dot_S4096x4096_S4096x512_S4096x512_1_0_0_1_n_n_wf

class Facts : Prop extends Facts₀ where

variable [Facts]
-- ==== Proof.BitsKit.lean ====
/-
  What the runs of the graph-convolution kernel's three control cases share: the array contents the region finds
  (the bias reshaped to a row by the one host line before it, the other arguments as launched), each window's block
  at a grid point, the closed forms of the three branch conditions over the 8 by 3 grid (point t is row block t / 3
  and relation t % 3), and the staging and scratch memrefs the body is called with.
-/
import proofs.«173977_g25082609009178_cont_9to1_1719_7_alg».proof.Proof.Gen.Kernel.Launch
import proofs.«173977_g25082609009178_cont_9to1_1719_7_alg».proof.Proof.Gen.Kernel.Skeleton
import proofs.«173977_g25082609009178_cont_9to1_1719_7_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- The buffers of core c when the region is entered: the launch contents after the bias has been reshaped to a row. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is the reshape followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes the row buffer only: each argument is found as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof data
    whose array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof data
    whose array is the region-entry contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The first branch (the supports are computed): row block 0 and relation 0. -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
theorem hcond0_0 : ∀ t : Fin cfg0.N, cond0_0 (grid0.coords t) ↔ t.val = 0 :=
  (by decide +kernel : ∀ t : Fin grid0.N, cond0_0 (grid0.coords t) ↔ t.val = 0)

/-- The second branch (the accumulator is set, with the bias): relation 0. -/
abbrev cond0_1 (i : grid0.Coords) : Prop := k0_cond2 i = 1#1
theorem hcond0_1 : ∀ t : Fin cfg0.N, cond0_1 (grid0.coords t) ↔ t.val % 3 = 0 :=
  (by decide +kernel : ∀ t : Fin grid0.N, cond0_1 (grid0.coords t) ↔ t.val % 3 = 0)

/-- The third branch (the accumulator is added to): relations 1 and 2. -/
abbrev cond0_2 (i : grid0.Coords) : Prop := k0_cond3 i = 1#1
theorem hcond0_2 : ∀ t : Fin cfg0.N, cond0_2 (grid0.coords t) ↔ ¬ t.val % 3 = 0 :=
  (by decide +kernel : ∀ t : Fin grid0.N, cond0_2 (grid0.coords t) ↔ ¬ t.val % 3 = 0)

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
/-- Every relation index is 0 or positive, so one of the two accumulator branches stores at every point. -/
theorem live0_5 : ∀ i : grid0.Coords, cfg0.idle 5 i = false := by decide +kernel
theorem liveAt0_5 : ∀ t : Fin cfg0.N, cfg0.idle 5 (grid0.coords t) = false := fun t => live0_5 _

/-! ## The memrefs the body is called with -/

/-- One staging buffer of the output window, through which its contents are stated. -/
abbrev VO0_5 : View sig .tc .vmem S512x512 .f32 := (Memref.whole cc0_stg5_0 : Memref sig .tc .vmem S512x512 .f32).view
abbrev ms0_0 (t : Fin cfg0.N) : Memref sig .tc .vmem S4096x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3x512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x512 .f32 := win0_5.stage (cfg0.slots t 5)
abbrev hs0_5 (t : Fin cfg0.N) : (ms0_5 t).IsWhole := hstage0_5 ((cfg0.slots t 5).cast nbuf0_5)
/-- The scratch holding the three supports, row-stacked. -/
abbrev scM0 : Memref sig .tc .vmem S12288x512 .bf16 := Memref.whole cc0_scratch0
abbrev VS0 : View sig .tc .vmem S12288x512 .bf16 := scM0.view

/-- The class invariant with the scratch as a memref owned at some contents. -/
theorem PhiA0_eq (c : Dev nD) :
    (Pipeline.ΦA spec0 c : sProp 𝕄)
      = iprop(iprop((∃ d, owns (c : Thread nD τ) scM0 fullShare d)) ∗ (∃ r, prngReg c r)) := by
  unfold Pipeline.ΦA; rw [scopedRest0_eq]; simp only [scM0, owns_whole]; try rfl

end Cert.Kernel.Hand

end
-- ==== Proof.BitsRunB.lean ====
/-
  The kernel body at a point of relation 0 on a later row block: the supports are already in the scratch, which is
  only read; the accumulator block is set to the two half-contractions' sum plus the bias row.
-/
import proofs.«173977_g25082609009178_cont_9to1_1719_7_alg».proof.Proof.BitsKit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output buffer, with the body's triple: inputs and scratch handed back as
    found, the output buffer with the pieces written. -/
noncomputable def kernelRun0_B (c : Dev nD) (i : grid0.Coords) (arg2 : Memref sig .tc .vmem S4096x512 .f32) (harg2 : arg2.IsWhole) (arg3 : Memref sig .tc .vmem S3x512x512 .f32) (harg3 : arg3.IsWhole) (arg4 : Memref sig .tc .vmem S1x512x2048 .f32) (harg4 : arg4.IsWhole) (arg5 : Memref sig .tc .vmem S1x512x2048 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S12288x512 .bf16) (harg8 : arg8.IsWhole) (hc0 : ¬cond0_0 i) (hc1 : cond0_1 i) (hc2 : ¬cond0_2 i)
    (x0 : Vec F S4096x512 .f32) (x1 : Vec F S3x512x512 .f32) (x2 : Vec F S1x512x2048 .f32) (x3 : Vec F S1x512x2048 .f32) (x4 : Vec F S1x512 .f32) (xs : Vec F S12288x512 .bf16) :
    { L5 : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5) ∗ owns (c : Thread nD τ) arg8 fullShare xs) -∗ K ⟨⟩))
          ⊢ wp frame (wpE (defs₀ (F := F)) Variants.none c none) E (cc0__fused_body i arg2 harg2 arg3 harg3 arg4 harg4 arg5 harg5 arg6 harg6 arg7 harg7 arg8 harg8) K } := by
  refine ⟨?_, fun E K => ?run⟩
  case run =>
    simp only [cc0__fused_body_eq_skeleton]; unfold cc0__fused_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg8.eq_unread hfs
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    iexists _; isplitr; · ipureintro; exact harg8.read_unread _
    iexact HS

end Cert.Kernel.Hand

end
-- ==== Proof.BitsRunC.lean ====
/-
  The kernel body at a point of relation 1 or 2: the scratch is only read, and the accumulator block the point before
  left is read back and added to.
-/
import proofs.«173977_g25082609009178_cont_9to1_1719_7_alg».proof.Proof.BitsRunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's store leaves in the output buffer, with the body's triple: the output buffer is taken at the
    contents the point before left and handed back with the pieces written. -/
noncomputable def kernelRun0_C (c : Dev nD) (i : grid0.Coords) (arg2 : Memref sig .tc .vmem S4096x512 .f32) (harg2 : arg2.IsWhole) (arg3 : Memref sig .tc .vmem S3x512x512 .f32) (harg3 : arg3.IsWhole) (arg4 : Memref sig .tc .vmem S1x512x2048 .f32) (harg4 : arg4.IsWhole) (arg5 : Memref sig .tc .vmem S1x512x2048 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S12288x512 .bf16) (harg8 : arg8.IsWhole) (hc0 : ¬cond0_0 i) (hc1 : ¬cond0_1 i) (hc2 : cond0_2 i)
    (x0 : Vec F S4096x512 .f32) (x1 : Vec F S3x512x512 .f32) (x2 : Vec F S1x512x2048 .f32) (x3 : Vec F S1x512x2048 .f32) (x4 : Vec F S1x512 .f32) (xs : Vec F S12288x512 .bf16) (xo : Vec F S512x512 .f32) :
    { L5 : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare xo ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5) ∗ owns (c : Thread nD τ) arg8 fullShare xs) -∗ K ⟨⟩))
          ⊢ wp frame (wpE (defs₀ (F := F)) Variants.none c none) E (cc0__fused_body i arg2 harg2 arg3 harg3 arg4 harg4 arg5 harg5 arg6 harg6 arg7 harg7 arg8 harg8) K } := by
  refine ⟨?_, fun E K => ?run⟩
  case run =>
    simp only [cc0__fused_body_eq_skeleton]; unfold cc0__fused_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5; obtain rfl := harg8.eq_unread hfs
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    iexists _; isplitr; · ipureintro; exact harg8.read_unread _
    iexact HS

end Cert.Kernel.Hand

end
-- ==== Proof.BitsRunA.lean ====
/-
  The kernel body at the first grid point: the three supports are computed and stored into the scratch, one 4096-row
  band each, then read back half a band at a time for relation 0; the accumulator block is set with the bias.
-/
import proofs.«173977_g25082609009178_cont_9to1_1719_7_alg».proof.Proof.BitsRunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first grid point: row block 0, relation 0. -/
abbrev t0 : Fin cfg0.N := ⟨0, by decide⟩
abbrev i0 : grid0.Coords := grid0.coords t0

set_option maxHeartbeats 2000000 in
/-- The pieces the body's stores leave in the output buffer and in the scratch, with the body's triple: the scratch is
    taken at any contents and handed back with its three bands written. -/
noncomputable def kernelRun0_A (c : Dev nD) (arg2 : Memref sig .tc .vmem S4096x512 .f32) (harg2 : arg2.IsWhole) (arg3 : Memref sig .tc .vmem S3x512x512 .f32) (harg3 : arg3.IsWhole) (arg4 : Memref sig .tc .vmem S1x512x2048 .f32) (harg4 : arg4.IsWhole) (arg5 : Memref sig .tc .vmem S1x512x2048 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S12288x512 .bf16) (harg8 : arg8.IsWhole)
    (x0 : Vec F S4096x512 .f32) (x1 : Vec F S3x512x512 .f32) (x2 : Vec F S1x512x2048 .f32) (x3 : Vec F S1x512x2048 .f32) (x4 : Vec F S1x512 .f32) :
    Σ' (L5 : List (View.Piece (Elt F) S512x512 .f32)), { LS : List (View.Piece (Elt F) S12288x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS)) -∗ K ⟨⟩))
          ⊢ wp frame (wpE (defs₀ (F := F)) Variants.none c none) E (cc0__fused_body i0 arg2 harg2 arg3 harg3 arg4 harg4 arg5 harg5 arg6 harg6 arg7 harg7 arg8 harg8) K } := by
  refine ⟨?_, ?_, fun E K => ?run⟩
  case run =>
    simp only [cc0__fused_body_eq_skeleton]; unfold cc0__fused_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4
    sl_exec (disch := decide)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    iexists _; iexact HS

end Cert.Kernel.Hand

end
-- ==== Proof.BitsFrame.lean ====
/-
  The frame of the graph-convolution kernel: what the accumulator block and the scratch hold after each grid point,
  the proof data over them, and the body's obligation at every point by the three control cases.
-/
import proofs.«173977_g25082609009178_cont_9to1_1719_7_alg».proof.Proof.BitsRunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

theorem cover0_A_5 (c : Dev nD) (arg2 : Memref sig .tc .vmem S4096x512 .f32) (harg2 : arg2.IsWhole) (arg3 : Memref sig .tc .vmem S3x512x512 .f32) (harg3 : arg3.IsWhole) (arg4 : Memref sig .tc .vmem S1x512x2048 .f32) (harg4 : arg4.IsWhole) (arg5 : Memref sig .tc .vmem S1x512x2048 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S12288x512 .bf16) (harg8 : arg8.IsWhole) (x0 : Vec F S4096x512 .f32) (x1 : Vec F S3x512x512 .f32) (x2 : Vec F S1x512x2048 .f32) (x3 : Vec F S1x512x2048 .f32) (x4 : Vec F S1x512 .f32) (y : S512x512.Idx) :
    ∃ pc ∈ (kernelRun0_A c arg2 harg2 arg3 harg3 arg4 harg4 arg5 harg5 arg6 harg6 arg7 harg7 arg8 harg8 x0 x1 x2 x3 x4).1, y ∈ pc.1.set :=
  View.cover_of_tiledL (kernelRun0_A c arg2 harg2 arg3 harg3 arg4 harg4 arg5 harg5 arg6 harg6 arg7 harg7 arg8 harg8 x0 x1 x2 x3 x4).1 S512x512.size (by sl_kernel_rfl) y

/-- The accumulator block after the first point. -/
def out0_A_5 (c : Dev nD) (arg2 : Memref sig .tc .vmem S4096x512 .f32) (harg2 : arg2.IsWhole) (arg3 : Memref sig .tc .vmem S3x512x512 .f32) (harg3 : arg3.IsWhole) (arg4 : Memref sig .tc .vmem S1x512x2048 .f32) (harg4 : arg4.IsWhole) (arg5 : Memref sig .tc .vmem S1x512x2048 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S12288x512 .bf16) (harg8 : arg8.IsWhole) (x0 : Vec F S4096x512 .f32) (x1 : Vec F S3x512x512 .f32) (x2 : Vec F S1x512x2048 .f32) (x3 : Vec F S1x512x2048 .f32) (x4 : Vec F S1x512 .f32) : Vec F S512x512 .f32 :=
  VO0_5.read (Elt F) (VO0_5.writes (Elt F) VO0_5.junk (kernelRun0_A c arg2 harg2 arg3 harg3 arg4 harg4 arg5 harg5 arg6 harg6 arg7 harg7 arg8 harg8 x0 x1 x2 x3 x4).1)

theorem scover0_A (c : Dev nD) (arg2 : Memref sig .tc .vmem S4096x512 .f32) (harg2 : arg2.IsWhole) (arg3 : Memref sig .tc .vmem S3x512x512 .f32) (harg3 : arg3.IsWhole) (arg4 : Memref sig .tc .vmem S1x512x2048 .f32) (harg4 : arg4.IsWhole) (arg5 : Memref sig .tc .vmem S1x512x2048 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S12288x512 .bf16) (harg8 : arg8.IsWhole) (x0 : Vec F S4096x512 .f32) (x1 : Vec F S3x512x512 .f32) (x2 : Vec F S1x512x2048 .f32) (x3 : Vec F S1x512x2048 .f32) (x4 : Vec F S1x512 .f32) (y : S12288x512.Idx) :
    ∃ pc ∈ (kernelRun0_A c arg2 harg2 arg3 harg3 arg4 harg4 arg5 harg5 arg6 harg6 arg7 harg7 arg8 harg8 x0 x1 x2 x3 x4).2.1, y ∈ pc.1.set :=
  View.cover_of_tiledL (kernelRun0_A c arg2 harg2 arg3 harg3 arg4 harg4 arg5 harg5 arg6 harg6 arg7 harg7 arg8 harg8 x0 x1 x2 x3 x4).2.1 S4096x512.size (by sl_kernel_rfl) y

/-- The scratch after the first point: the three supports, row-stacked. -/
def sout0_A (c : Dev nD) (arg2 : Memref sig .tc .vmem S4096x512 .f32) (harg2 : arg2.IsWhole) (arg3 : Memref sig .tc .vmem S3x512x512 .f32) (harg3 : arg3.IsWhole) (arg4 : Memref sig .tc .vmem S1x512x2048 .f32) (harg4 : arg4.IsWhole) (arg5 : Memref sig .tc .vmem S1x512x2048 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S12288x512 .bf16) (harg8 : arg8.IsWhole) (x0 : Vec F S4096x512 .f32) (x1 : Vec F S3x512x512 .f32) (x2 : Vec F S1x512x2048 .f32) (x3 : Vec F S1x512x2048 .f32) (x4 : Vec F S1x512 .f32) : Vec F S12288x512 .bf16 :=
  VS0.read (Elt F) (VS0.writes (Elt F) VS0.junk (kernelRun0_A c arg2 harg2 arg3 harg3 arg4 harg4 arg5 harg5 arg6 harg6 arg7 harg7 arg8 harg8 x0 x1 x2 x3 x4).2.1)

theorem cover0_B_5 (c : Dev nD) (i : grid0.Coords) (arg2 : Memref sig .tc .vmem S4096x512 .f32) (harg2 : arg2.IsWhole) (arg3 : Memref sig .tc .vmem S3x512x512 .f32) (harg3 : arg3.IsWhole) (arg4 : Memref sig .tc .vmem S1x512x2048 .f32) (harg4 : arg4.IsWhole) (arg5 : Memref sig .tc .vmem S1x512x2048 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S12288x512 .bf16) (harg8 : arg8.IsWhole) (hc0 : ¬cond0_0 i) (hc1 : cond0_1 i) (hc2 : ¬cond0_2 i) (x0 : Vec F S4096x512 .f32) (x1 : Vec F S3x512x512 .f32) (x2 : Vec F S1x512x2048 .f32) (x3 : Vec F S1x512x2048 .f32) (x4 : Vec F S1x512 .f32) (xs : Vec F S12288x512 .bf16) (y : S512x512.Idx) :
    ∃ pc ∈ (kernelRun0_B c i arg2 harg2 arg3 harg3 arg4 harg4 arg5 harg5 arg6 harg6 arg7 harg7 arg8 harg8 hc0 hc1 hc2 x0 x1 x2 x3 x4 xs).1, y ∈ pc.1.set :=
  View.cover_of_tiledL (kernelRun0_B c i arg2 harg2 arg3 harg3 arg4 harg4 arg5 harg5 arg6 harg6 arg7 harg7 arg8 harg8 hc0 hc1 hc2 x0 x1 x2 x3 x4 xs).1 S512x512.size (by sl_kernel_rfl) y

/-- The accumulator block after a relation-0 point of a later row block. -/
def out0_B_5 (c : Dev nD) (i : grid0.Coords) (arg2 : Memref sig .tc .vmem S4096x512 .f32) (harg2 : arg2.IsWhole) (arg3 : Memref sig .tc .vmem S3x512x512 .f32) (harg3 : arg3.IsWhole) (arg4 : Memref sig .tc .vmem S1x512x2048 .f32) (harg4 : arg4.IsWhole) (arg5 : Memref sig .tc .vmem S1x512x2048 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S12288x512 .bf16) (harg8 : arg8.IsWhole) (hc0 : ¬cond0_0 i) (hc1 : cond0_1 i) (hc2 : ¬cond0_2 i) (x0 : Vec F S4096x512 .f32) (x1 : Vec F S3x512x512 .f32) (x2 : Vec F S1x512x2048 .f32) (x3 : Vec F S1x512x2048 .f32) (x4 : Vec F S1x512 .f32) (xs : Vec F S12288x512 .bf16) : Vec F S512x512 .f32 :=
  VO0_5.read (Elt F) (VO0_5.writes (Elt F) VO0_5.junk (kernelRun0_B c i arg2 harg2 arg3 harg3 arg4 harg4 arg5 harg5 arg6 harg6 arg7 harg7 arg8 harg8 hc0 hc1 hc2 x0 x1 x2 x3 x4 xs).1)

theorem cover0_C_5 (c : Dev nD) (i : grid0.Coords) (arg2 : Memref sig .tc .vmem S4096x512 .f32) (harg2 : arg2.IsWhole) (arg3 : Memref sig .tc .vmem S3x512x512 .f32) (harg3 : arg3.IsWhole) (arg4 : Memref sig .tc .vmem S1x512x2048 .f32) (harg4 : arg4.IsWhole) (arg5 : Memref sig .tc .vmem S1x512x2048 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S12288x512 .bf16) (harg8 : arg8.IsWhole) (hc0 : ¬cond0_0 i) (hc1 : ¬cond0_1 i) (hc2 : cond0_2 i) (x0 : Vec F S4096x512 .f32) (x1 : Vec F S3x512x512 .f32) (x2 : Vec F S1x512x2048 .f32) (x3 : Vec F S1x512x2048 .f32) (x4 : Vec F S1x512 .f32) (xs : Vec F S12288x512 .bf16) (xo : Vec F S512x512 .f32) (y : S512x512.Idx) :
    ∃ pc ∈ (kernelRun0_C c i arg2 harg2 arg3 harg3 arg4 harg4 arg5 harg5 arg6 harg6 arg7 harg7 arg8 harg8 hc0 hc1 hc2 x0 x1 x2 x3 x4 xs xo).1, y ∈ pc.1.set :=
  View.cover_of_tiledL (kernelRun0_C c i arg2 harg2 arg3 harg3 arg4 harg4 arg5 harg5 arg6 harg6 arg7 harg7 arg8 harg8 hc0 hc1 hc2 x0 x1 x2 x3 x4 xs xo).1 S512x512.size (by sl_kernel_rfl) y

/-- The accumulator block after a point of relation 1 or 2, over what the point before left. -/
def out0_C_5 (c : Dev nD) (i : grid0.Coords) (arg2 : Memref sig .tc .vmem S4096x512 .f32) (harg2 : arg2.IsWhole) (arg3 : Memref sig .tc .vmem S3x512x512 .f32) (harg3 : arg3.IsWhole) (arg4 : Memref sig .tc .vmem S1x512x2048 .f32) (harg4 : arg4.IsWhole) (arg5 : Memref sig .tc .vmem S1x512x2048 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S12288x512 .bf16) (harg8 : arg8.IsWhole) (hc0 : ¬cond0_0 i) (hc1 : ¬cond0_1 i) (hc2 : cond0_2 i) (x0 : Vec F S4096x512 .f32) (x1 : Vec F S3x512x512 .f32) (x2 : Vec F S1x512x2048 .f32) (x3 : Vec F S1x512x2048 .f32) (x4 : Vec F S1x512 .f32) (xs : Vec F S12288x512 .bf16) (xo : Vec F S512x512 .f32) : Vec F S512x512 .f32 :=
  VO0_5.read (Elt F) (VO0_5.writes (Elt F) VO0_5.junk (kernelRun0_C c i arg2 harg2 arg3 harg3 arg4 harg4 arg5 harg5 arg6 harg6 arg7 harg7 arg8 harg8 hc0 hc1 hc2 x0 x1 x2 x3 x4 xs xo).1)

/-! ## Point by point -/

/-- The scratch from the first point on: what the first point stored, of the whole feature and weight arrays. -/
def scr (c : Dev nD) : Vec F S12288x512 .bf16 := sout0_A c (ms0_0 t0) (hs0_0 t0) (ms0_1 t0) (hs0_1 t0) (ms0_2 t0) (hs0_2 t0) (ms0_3 t0) (hs0_3 t0) (ms0_4 t0) (hs0_4 t0) (ms0_5 t0) (hs0_5 t0) scM0 (Memref.isWhole_whole _) (iblk m c 0 t0) (iblk m c 1 t0) (iblk m c 2 t0) (iblk m c 3 t0) (iblk m c 4 t0)

/-- The accumulator block after the body at position n: set at relation 0, added to at relations 1 and 2. -/
def outsAt0 (c : Dev nD) : (n : ℕ) → n < cfg0.N → Vec F S512x512 .f32
  | 0, hn => out0_A_5 c (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0 (Memref.isWhole_whole _) (iblk m c 0 ⟨0, hn⟩) (iblk m c 1 ⟨0, hn⟩) (iblk m c 2 ⟨0, hn⟩) (iblk m c 3 ⟨0, hn⟩) (iblk m c 4 ⟨0, hn⟩)
  | n + 1, hn =>
    if h1 : (n + 1) % 3 = 0 then
      out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) (fun h => Nat.succ_ne_zero n ((hcond0_0 ⟨n + 1, hn⟩).mp h)) ((hcond0_1 ⟨n + 1, hn⟩).mpr h1) (fun h => ((hcond0_2 ⟨n + 1, hn⟩).mp h) h1) (iblk m c 0 ⟨n + 1, hn⟩) (iblk m c 1 ⟨n + 1, hn⟩) (iblk m c 2 ⟨n + 1, hn⟩) (iblk m c 3 ⟨n + 1, hn⟩) (iblk m c 4 ⟨n + 1, hn⟩) (scr m c)
    else
      out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) (fun h => Nat.succ_ne_zero n ((hcond0_0 ⟨n + 1, hn⟩).mp h)) (fun h => h1 ((hcond0_1 ⟨n + 1, hn⟩).mp h)) ((hcond0_2 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (scr m c) (outsAt0 c n (Nat.lt_of_succ_lt hn))

theorem outsAt0_A (c : Dev nD) (t : Fin cfg0.N) (h0 : t.val = 0) :
    outsAt0 m c t.val t.isLt = out0_A_5 c (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (iblk m c 0 t) (iblk m c 1 t) (iblk m c 2 t) (iblk m c 3 t) (iblk m c 4 t) := by
  obtain ⟨n, hn⟩ := t
  cases n with
  | zero => rfl
  | succ n => exact absurd h0 (Nat.succ_ne_zero n)

theorem outsAt0_B (c : Dev nD) (t : Fin cfg0.N) (h0 : ¬t.val = 0) (h1 : t.val % 3 = 0) :
    outsAt0 m c t.val t.isLt = out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) ((hcond0_1 t).mpr h1) (fun h => ((hcond0_2 t).mp h) h1) (iblk m c 0 t) (iblk m c 1 t) (iblk m c 2 t) (iblk m c 3 t) (iblk m c 4 t) (scr m c) := by
  obtain ⟨n, hn⟩ := t
  cases n with
  | zero => exact absurd rfl h0
  | succ n => exact (dif_pos h1).trans rfl

theorem outsAt0_C (c : Dev nD) (t : Fin cfg0.N) (h0 : ¬t.val = 0) (h1 : ¬t.val % 3 = 0) :
    outsAt0 m c t.val t.isLt = out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) (fun h => h1 ((hcond0_1 t).mp h)) ((hcond0_2 t).mpr h1) (iblk m c 0 t) (iblk m c 1 t) (iblk m c 2 t) (iblk m c 3 t) (iblk m c 4 t) (scr m c) (outsAt0 m c (t.val - 1) (Nat.lt_of_le_of_lt (Nat.sub_le _ _) t.isLt)) := by
  obtain ⟨n, hn⟩ := t
  cases n with
  | zero => exact absurd rfl h0
  | succ n => exact (dif_neg h1).trans rfl

/-- The region invariant before position n: the scratch at anything before the first point, at the stored supports after. -/
def PhiS (c : Dev nD) : ℕ → sProp 𝕄
  | 0 => iprop(∃ d, owns (c : Thread nD τ) scM0 fullShare d)
  | _ + 1 => owns (c : Thread nD τ) scM0 fullShare (scr m c)

theorem PhiS_pos (c : Dev nD) (n : ℕ) (hz : n ≠ 0) : PhiS m c n = owns (c : Thread nD τ) scM0 fullShare (scr m c) := by
  cases n with
  | zero => exact absurd rfl hz
  | succ n => rfl

/-! ## The proof data -/

/-- The arrays as the region finds them; each input buffer at its block; the accumulator at outsAt0; the adjacency array,
    read through two windows, lent to each at half the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outsAt0 m c t.val t.isLt
  Φ t := PhiS m c t.val
  q w := match w with
    | ⟨2, _⟩ => fullShare.left
    | ⟨3, _⟩ => fullShare.right
    | _ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outsAt0 m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- At relation 0 the accumulator's buffer is fresh: it is the first point, or the block before has just been written back. -/
theorem before0_5_reset (c : Dev nD) (t : Fin cfg0.N) (h1 : t.val % 3 = 0) (d) : (dats m 0 c).before 5 t d = d := by
  refine Pipeline.Dat.before_out_reset (dats m 0 c) 5 rfl t ?_ d
  by_cases hz : t.val = 0
  · exact .inl hz
  · refine .inr ⟨hz, (flush0_5 _).mpr ?_⟩
    show (t.val - 1) % 3 = 2
    omega

/-- At relations 1 and 2 the accumulator's buffer holds what the point before left. -/
theorem before0_5_kept (c : Dev nD) (t : Fin cfg0.N) (h1 : ¬t.val % 3 = 0) (d) :
    (dats m 0 c).before 5 t d = outsAt0 m c (t.val - 1) (Nat.lt_of_le_of_lt (Nat.sub_le _ _) t.isLt) := by
  have hz : t.val ≠ 0 := fun h => h1 (by rw [h])
  have hfl : (cfg0.win 5).flush ⟨t.val - 1, Nat.lt_of_le_of_lt (Nat.sub_le _ _) t.isLt⟩ = false := by
    rw [Bool.eq_false_iff]
    intro h
    have h2 : (t.val - 1) % 3 = 2 := (flush0_5 _).mp h
    omega
  rw [Pipeline.Dat.before_out_kept (dats m 0 c) 5 rfl t hz hfl live0_5 (fun _ _ => rfl) d, after0_5]

theorem leaves0_0 (c : Dev nD) (t : Fin cfg0.N) : (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
    unfold Dat.leavesExact; rw [liveAt0_0 t], after0_0]
theorem leaves0_1 (c : Dev nD) (t : Fin cfg0.N) : (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by
    unfold Dat.leavesExact; rw [liveAt0_1 t], after0_1]
theorem leaves0_2 (c : Dev nD) (t : Fin cfg0.N) : (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by
    unfold Dat.leavesExact; rw [liveAt0_2 t], after0_2]
theorem leaves0_3 (c : Dev nD) (t : Fin cfg0.N) : (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from by
    unfold Dat.leavesExact; rw [liveAt0_3 t], after0_3]
theorem leaves0_4 (c : Dev nD) (t : Fin cfg0.N) : (dats m 0 c).leavesExact 4 t = owns (c : Thread nD τ) (ms0_4 t) fullShare (iblk m c 4 t) := by
  rw [show (dats m 0 c).leavesExact 4 t = owns (c : Thread nD τ) (ms0_4 t) fullShare ((dats m 0 c).after 4 t) from by
    unfold Dat.leavesExact; rw [liveAt0_4 t], after0_4]
theorem leaves0_5 (c : Dev nD) (t : Fin cfg0.N) : (dats m 0 c).leavesExact 5 t = owns (c : Thread nD τ) (ms0_5 t) fullShare (outsAt0 m c t.val t.isLt) := by
  rw [show (dats m 0 c).leavesExact 5 t = owns (c : Thread nD τ) (ms0_5 t) fullShare ((dats m 0 c).after 5 t) from by
    unfold Dat.leavesExact; rw [liveAt0_5 t], after0_5]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 4800000 in
/-- The body at any point, by the three control cases. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = owns (c : Thread nD τ) scM0 fullShare (scr m c) from rfl]
  rw [leaves0_0, leaves0_1, leaves0_2, leaves0_3, leaves0_4, leaves0_5]
  by_cases h1 : t.val % 3 = 0
  · simp only [before0_5_reset m c t h1]
    by_cases hz : t.val = 0
    · obtain rfl : t = t0 := Fin.ext hz
      rw [outsAt0_A m c t0 rfl]
      rw [show (dats m 0 c).Φ t0.castSucc = iprop(∃ d, owns (c : Thread nD τ) scM0 fullShare d) from rfl]
      iintro ⟨⟨%ds, HS⟩, Ho, ⟨%d0, H0⟩, ⟨%d1, H1⟩, ⟨%d2, H2⟩, ⟨%d3, H3⟩, ⟨%d4, H4⟩, ⟨%d5, H5⟩⟩
      iapply ((kernelRun0_A c (ms0_0 t0) (hs0_0 t0) (ms0_1 t0) (hs0_1 t0) (ms0_2 t0) (hs0_2 t0) (ms0_3 t0) (hs0_3 t0) (ms0_4 t0) (hs0_4 t0) (ms0_5 t0) (hs0_5 t0) scM0 (Memref.isWhole_whole _) (iblk m c 0 t0) (iblk m c 1 t0) (iblk m c 2 t0) (iblk m c 3 t0) (iblk m c 4 t0)).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexists _; iexact HS
      iintro ⟨H0, H1, H2, H3, H4, ⟨%e5, H5⟩, ⟨%es, HS⟩⟩
      isplitl [HS]
      · unfold scr sout0_A owns; iexists _; isplitr
        swap; · iexact HS
        ipureintro; exact View.read_writes_of_cover _ _ _ _ _ (scover0_A c (ms0_0 t0) (hs0_0 t0) (ms0_1 t0) (hs0_1 t0) (ms0_2 t0) (hs0_2 t0) (ms0_3 t0) (hs0_3 t0) (ms0_4 t0) (hs0_4 t0) (ms0_5 t0) (hs0_5 t0) scM0 (Memref.isWhole_whole _) (iblk m c 0 t0) (iblk m c 1 t0) (iblk m c 2 t0) (iblk m c 3 t0) (iblk m c 4 t0))
      isplitl [Ho]; · iexact Ho
      isplitl [H0]; · iexact H0
      isplitl [H1]; · iexact H1
      isplitl [H2]; · iexact H2
      isplitl [H3]; · iexact H3
      isplitl [H4]; · iexact H4
      unfold out0_A_5 owns; iexists _; isplitr
      swap; · iexact H5
      ipureintro; exact View.read_writes_of_cover _ _ _ _ _ (cover0_A_5 c (ms0_0 t0) (hs0_0 t0) (ms0_1 t0) (hs0_1 t0) (ms0_2 t0) (hs0_2 t0) (ms0_3 t0) (hs0_3 t0) (ms0_4 t0) (hs0_4 t0) (ms0_5 t0) (hs0_5 t0) scM0 (Memref.isWhole_whole _) (iblk m c 0 t0) (iblk m c 1 t0) (iblk m c 2 t0) (iblk m c 3 t0) (iblk m c 4 t0))
    · rw [outsAt0_B m c t hz h1]
      rw [show (dats m 0 c).Φ t.castSucc = PhiS m c t.val from rfl, PhiS_pos m c _ hz]
      iintro ⟨HS, Ho, ⟨%d0, H0⟩, ⟨%d1, H1⟩, ⟨%d2, H2⟩, ⟨%d3, H3⟩, ⟨%d4, H4⟩, ⟨%d5, H5⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => hz ((hcond0_0 t).mp h)) ((hcond0_1 t).mpr h1) (fun h => ((hcond0_2 t).mp h) h1) (iblk m c 0 t) (iblk m c 1 t) (iblk m c 2 t) (iblk m c 3 t) (iblk m c 4 t) (scr m c)).2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      unfold out0_B_5 owns; iexists _; isplitr
      swap; · iexact H5
      ipureintro; exact View.read_writes_of_cover _ _ _ _ _ (cover0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) _ _ _ (iblk m c 0 t) (iblk m c 1 t) (iblk m c 2 t) (iblk m c 3 t) (iblk m c 4 t) (scr m c))
  · have hz : ¬t.val = 0 := fun h => h1 (by rw [h])
    simp only [before0_5_kept m c t h1]
    rw [outsAt0_C m c t hz h1]
    rw [show (dats m 0 c).Φ t.castSucc = PhiS m c t.val from rfl, PhiS_pos m c _ hz]
    iintro ⟨HS, Ho, ⟨%d0, H0⟩, ⟨%d1, H1⟩, ⟨%d2, H2⟩, ⟨%d3, H3⟩, ⟨%d4, H4⟩, ⟨%d5, H5⟩⟩
    iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => hz ((hcond0_0 t).mp h)) (fun h => h1 ((hcond0_1 t).mp h)) ((hcond0_2 t).mpr h1) (iblk m c 0 t) (iblk m c 1 t) (iblk m c 2 t) (iblk m c 3 t) (iblk m c 4 t) (scr m c) _).2 Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, ⟨%e5, H5⟩, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    unfold out0_C_5 owns; iexists _; isplitr
    swap; · iexact H5
    ipureintro; exact View.read_writes_of_cover _ _ _ _ _ (cover0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) _ _ _ (iblk m c 0 t) (iblk m c 1 t) (iblk m c 2 t) (iblk m c 3 t) (iblk m c 4 t) (scr m c) _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.BitsSplit.lean ====
/-
  The region's entry: the buffers behind the windows' arrays, each whole at the full share, make the proof data's arrays.
  The adjacency array is read through two windows, so its share is halved between them.
-/
import proofs.«173977_g25082609009178_cont_9to1_1719_7_alg».proof.Proof.BitsFrame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.SL.BI (bigSepL bigSep_eq_bigSepL_of_eq bigSep_congr)

theorem share0_0 (c : Dev nD) : (dats m 0 c).share 0 = fullShare := rfl
theorem share0_1 (c : Dev nD) : (dats m 0 c).share 1 = fullShare := rfl
theorem share0_2 (c : Dev nD) : (dats m 0 c).share 2 = fullShare.left := rfl
theorem share0_3 (c : Dev nD) : (dats m 0 c).share 3 = fullShare.right := rfl
theorem share0_4 (c : Dev nD) : (dats m 0 c).share 4 = fullShare := rfl
theorem share0_5 (c : Dev nD) : (dats m 0 c).share 5 = fullShare := rfl

/-- The proof data's arrays, each through its whole buffer. -/
theorem arrays_eq' (c : Dev nD) (G : (w : Fin cfg0.W) → Buf (Elt F) ((cfg0.win w).arr.view.loc (c.tc : Thread nD τ))) :
    (dats m 0 c).arrays G = bigSep Finset.univ fun w => (((c.tc : Thread nD τ).loc (Pipeline.arrRef spec0 w)) ↦{(dats m 0 c).share w} G w : sProp 𝕄) := by
  unfold Dat.arrays
  exact bigSep_congr fun w _ => by rw [(arr_whole0 w).set_eq_univ]

theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  classical
  have hL : ∀ Φ : Ref sig .tc → sProp 𝕄, bigSep (Finset.univ.image (Pipeline.arrRef spec0)) Φ
      = iprop(Φ main_arg0 ∗ Φ main_arg2 ∗ Φ main_arg1 ∗ Φ main_v0 ∗ Φ main_v1) :=
    fun Φ => bigSep_eq_bigSepL_of_eq [main_arg0, main_arg2, main_arg1, main_v0, main_v1] (by decide) (by decide) Φ
  rw [arrays_eq' m c, bigSep_W0]
  unfold Pipeline.arrBufs
  rw [hL]
  rw [share0_0, share0_1, share0_2, share0_3, share0_4, share0_5]
  rw [show (dats m 0 c).arrAt 0 0 = V m c main_arg0 from A_eq m c 0,
    show (dats m 0 c).arrAt 1 0 = V m c main_arg2 from A_eq m c 1,
    show (dats m 0 c).arrAt 2 0 = V m c main_arg1 from A_eq m c 2,
    show (dats m 0 c).arrAt 3 0 = V m c main_arg1 from A_eq m c 3,
    show (dats m 0 c).arrAt 4 0 = V m c main_v0 from A_eq m c 4,
    show (dats m 0 c).arrAt 5 0 = V m c main_v1 from A_eq m c 5]
  generalize V m c = Vc
  iintro ⟨H0, H2, H1, H4, H5⟩
  ihave H1' := (pointsTo_share (PosShare.mem_left_op_right fullShare)).1 $$ H1
  icases H1' with ⟨H1l, H1r⟩
  isplitl [H0]; · iexact H0
  isplitl [H2]; · iexact H2
  isplitl [H1l]; · iexact H1l
  isplitl [H1r]; · iexact H1r
  isplitl [H4]; · iexact H4
  iexact H5

end Cert.Kernel.Hand

end
-- ==== Proof.BitsLaunch.lean ====
/-
  The launch of the graph-convolution kernel's region. The adjacency array is read through two windows (the lower and
  the upper half of its columns), so the region's entry splits its full share between them; the other arrays go to
  their one window whole. From the run: the arguments end unchanged, and the result array is what the write-backs leave.
-/
import proofs.«173977_g25082609009178_cont_9to1_1719_7_alg».proof.Proof.BitsSplit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Before the first point the invariant is the scoped rest: the scratch at anything. -/
theorem hin (c : Dev nD) :
    iprop((BI.emp : sProp 𝕄) ∗ Pipeline.scopedRest (Ix := Unit) (Name := ℕ) (U := UR sig nD τ) (Lvl := ℕ) (Val := Elt F) spec0 c) ⊢ (dats m 0 c).Φ 0 := by
  rw [show (dats m 0 c).Φ 0 = iprop(∃ d, owns (c : Thread nD τ) scM0 fullShare d) from rfl, scopedRest0_eq]
  simp only [scM0, owns_whole]
  iintro ⟨-, H⟩
  iexact H

/-- After the last point the stored supports are forgotten again. -/
theorem hout (c : Dev nD) :
    (dats m 0 c).Φ (Fin.last cfg0.N) ⊢ iprop((BI.emp : sProp 𝕄) ∗ Pipeline.scopedRest (Ix := Unit) (Name := ℕ) (U := UR sig nD τ) (Lvl := ℕ) (Val := Elt F) spec0 c) := by
  rw [show (dats m 0 c).Φ (Fin.last cfg0.N) = PhiS m c cfg0.N from rfl,
    PhiS_pos m c _ (by have : cfg0.N = 24 := N_0; omega), scopedRest0_eq]
  simp only [scM0, owns_whole]
  iintro H
  isplitr; · iempintro
  iexists _; iexact H

/-- The run of the whole program: every array of the pipeline ends at what the write-backs leave, every other unscoped
    buffer as the region found it. -/
theorem run_main : θ_run defs (onTc (τ := τ) (main (F := F))) ⟨m, fun _ => 0, ρ⟩ (Pipeline.FramePost cfgs (dats m) 0 (V m)) := by
  classical
  exact Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := hsplit m)
    (X := fun _ => BI.emp) (Y := fun _ => BI.emp)
    (Z := fun c => Pipeline.unscopedRest (Ix := Unit) (Name := ℕ) (U := UR sig nD τ) (Lvl := ℕ) spec0 c (V m c))
    (hX := fun c => by
      iintro H
      isplitr; · iempintro
      iexact H)
    (hin := hin m) (hout := hout m)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- The frame: the four arguments end as launched. The features, the weights and the adjacencies are staged inputs; the
    bias is read only through its reshaped copy and bypasses the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats m 0 c).arrAt_in 0 rfl _).trans ((A_eq m c 0).trans (V_main_arg0 m c))),
     ((h c).1 2).trans (((dats m 0 c).arrAt_in 2 rfl _).trans ((A_eq m c 2).trans (V_main_arg1 m c))),
     ((h c).1 1).trans (((dats m 0 c).arrAt_in 1 rfl _).trans ((A_eq m c 1).trans (V_main_arg2 m c))),
     ((h c).2 main_arg3 (Pipeline.mem_restRefs_of main_arg3 (by decide) (by decide))).trans (V_main_arg3 m c)⟩) (run_main m ρ)

/-- The same run with the result array named: what the eight write-backs of the accumulator block leave. -/
theorem run_result : θ_run defs (onTc (τ := τ) (main (F := F))) ⟨m, fun _ => 0, ρ⟩ (fun r => ∀ c : Dev nD,
      r.2.mem ((c.tc : Thread nD τ).loc main_v1) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c).1 5,
     ((h c).1 0).trans (((dats m 0 c).arrAt_in 0 rfl _).trans ((A_eq m c 0).trans (V_main_arg0 m c))),
     ((h c).1 2).trans (((dats m 0 c).arrAt_in 2 rfl _).trans ((A_eq m c 2).trans (V_main_arg1 m c))),
     ((h c).1 1).trans (((dats m 0 c).arrAt_in 1 rfl _).trans ((A_eq m c 1).trans (V_main_arg2 m c))),
     ((h c).2 main_arg3 (Pipeline.mem_restRefs_of main_arg3 (by decide) (by decide))).trans (V_main_arg3 m c)⟩) (run_main m ρ)

end Cert.Kernel.Hand

end
-- ==== Proof.IdealKit.lean ====
/-
  What the runs of the graph-convolution kernel's three control cases share: the array contents the region finds
  (the bias reshaped to a row by the one host line before it, the other arguments as launched), each window's block
  at a grid point, the closed forms of the three branch conditions over the 8 by 3 grid (point t is row block t / 3
  and relation t % 3), and the staging and scratch memrefs the body is called with.
-/
import proofs.«173977_g25082609009178_cont_9to1_1719_7_alg».proof.Proof.Gen.KernelIdeal.Launch
import proofs.«173977_g25082609009178_cont_9to1_1719_7_alg».proof.Proof.Gen.KernelIdeal.Skeleton
import proofs.«173977_g25082609009178_cont_9to1_1719_7_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The program up to the region -/

/-- The buffers of core c when the region is entered: the launch contents after the bias has been reshaped to a row. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is the reshape followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes the row buffer only: each argument is found as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof data
    whose array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof data
    whose array is the region-entry contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The first branch (the supports are computed): row block 0 and relation 0. -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
theorem hcond0_0 : ∀ t : Fin cfg0.N, cond0_0 (grid0.coords t) ↔ t.val = 0 :=
  (by decide +kernel : ∀ t : Fin grid0.N, cond0_0 (grid0.coords t) ↔ t.val = 0)

/-- The second branch (the accumulator is set, with the bias): relation 0. -/
abbrev cond0_1 (i : grid0.Coords) : Prop := k0_cond2 i = 1#1
theorem hcond0_1 : ∀ t : Fin cfg0.N, cond0_1 (grid0.coords t) ↔ t.val % 3 = 0 :=
  (by decide +kernel : ∀ t : Fin grid0.N, cond0_1 (grid0.coords t) ↔ t.val % 3 = 0)

/-- The third branch (the accumulator is added to): relations 1 and 2. -/
abbrev cond0_2 (i : grid0.Coords) : Prop := k0_cond3 i = 1#1
theorem hcond0_2 : ∀ t : Fin cfg0.N, cond0_2 (grid0.coords t) ↔ ¬ t.val % 3 = 0 :=
  (by decide +kernel : ∀ t : Fin grid0.N, cond0_2 (grid0.coords t) ↔ ¬ t.val % 3 = 0)

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
/-- Every relation index is 0 or positive, so one of the two accumulator branches stores at every point. -/
theorem live0_5 : ∀ i : grid0.Coords, cfg0.idle 5 i = false := by decide +kernel
theorem liveAt0_5 : ∀ t : Fin cfg0.N, cfg0.idle 5 (grid0.coords t) = false := fun t => live0_5 _

/-! ## The memrefs the body is called with -/

/-- One staging buffer of the output window, through which its contents are stated. -/
abbrev VO0_5 : View sig .tc .vmem S512x512 .f32 := (Memref.whole cc0_stg5_0 : Memref sig .tc .vmem S512x512 .f32).view
abbrev ms0_0 (t : Fin cfg0.N) : Memref sig .tc .vmem S4096x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3x512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x512 .f32 := win0_5.stage (cfg0.slots t 5)
abbrev hs0_5 (t : Fin cfg0.N) : (ms0_5 t).IsWhole := hstage0_5 ((cfg0.slots t 5).cast nbuf0_5)
/-- The scratch holding the three supports, row-stacked. -/
abbrev scM0 : Memref sig .tc .vmem S12288x512 .bf16 := Memref.whole cc0_scratch0
abbrev VS0 : View sig .tc .vmem S12288x512 .bf16 := scM0.view

/-- The class invariant with the scratch as a memref owned at some contents. -/
theorem PhiA0_eq (c : Dev nD) :
    (Pipeline.ΦA spec0 c : sProp 𝕄)
      = iprop(iprop((∃ d, owns (c : Thread nD τ) scM0 fullShare d)) ∗ (∃ r, prngReg c r)) := by
  unfold Pipeline.ΦA; rw [scopedRest0_eq]; simp only [scM0, owns_whole]; try rfl

end Cert.KernelIdeal.Hand

end
-- ==== Proof.IdealRunB.lean ====
/-
  The kernel body at a point of relation 0 on a later row block: the supports are already in the scratch, which is
  only read; the accumulator block is set to the two half-contractions' sum plus the bias row.
-/
import proofs.«173977_g25082609009178_cont_9to1_1719_7_alg».proof.Proof.IdealKit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output buffer, with the body's triple: inputs and scratch handed back as
    found, the output buffer with the pieces written. -/
noncomputable def kernelRun0_B (c : Dev nD) (i : grid0.Coords) (arg2 : Memref sig .tc .vmem S4096x512 .f32) (harg2 : arg2.IsWhole) (arg3 : Memref sig .tc .vmem S3x512x512 .f32) (harg3 : arg3.IsWhole) (arg4 : Memref sig .tc .vmem S1x512x2048 .f32) (harg4 : arg4.IsWhole) (arg5 : Memref sig .tc .vmem S1x512x2048 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S12288x512 .bf16) (harg8 : arg8.IsWhole) (hc0 : ¬cond0_0 i) (hc1 : cond0_1 i) (hc2 : ¬cond0_2 i)
    (x0 : Vec F S4096x512 .f32) (x1 : Vec F S3x512x512 .f32) (x2 : Vec F S1x512x2048 .f32) (x3 : Vec F S1x512x2048 .f32) (x4 : Vec F S1x512 .f32) (xs : Vec F S12288x512 .bf16) :
    { L5 : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5) ∗ owns (c : Thread nD τ) arg8 fullShare xs) -∗ K ⟨⟩))
          ⊢ wp frame (wpE (defs₀ (F := F)) Variants.none c none) E (cc0__fused_body i arg2 harg2 arg3 harg3 arg4 harg4 arg5 harg5 arg6 harg6 arg7 harg7 arg8 harg8) K } := by
  refine ⟨?_, fun E K => ?run⟩
  case run =>
    simp only [cc0__fused_body_eq_skeleton]; unfold cc0__fused_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg8.eq_unread hfs
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    iexists _; isplitr; · ipureintro; exact harg8.read_unread _
    iexact HS

end Cert.KernelIdeal.Hand

end
-- ==== Proof.IdealRunC.lean ====
/-
  The kernel body at a point of relation 1 or 2: the scratch is only read, and the accumulator block the point before
  left is read back and added to.
-/
import proofs.«173977_g25082609009178_cont_9to1_1719_7_alg».proof.Proof.IdealRunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's store leaves in the output buffer, with the body's triple: the output buffer is taken at the
    contents the point before left and handed back with the pieces written. -/
noncomputable def kernelRun0_C (c : Dev nD) (i : grid0.Coords) (arg2 : Memref sig .tc .vmem S4096x512 .f32) (harg2 : arg2.IsWhole) (arg3 : Memref sig .tc .vmem S3x512x512 .f32) (harg3 : arg3.IsWhole) (arg4 : Memref sig .tc .vmem S1x512x2048 .f32) (harg4 : arg4.IsWhole) (arg5 : Memref sig .tc .vmem S1x512x2048 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S12288x512 .bf16) (harg8 : arg8.IsWhole) (hc0 : ¬cond0_0 i) (hc1 : ¬cond0_1 i) (hc2 : cond0_2 i)
    (x0 : Vec F S4096x512 .f32) (x1 : Vec F S3x512x512 .f32) (x2 : Vec F S1x512x2048 .f32) (x3 : Vec F S1x512x2048 .f32) (x4 : Vec F S1x512 .f32) (xs : Vec F S12288x512 .bf16) (xo : Vec F S512x512 .f32) :
    { L5 : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare xo ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5) ∗ owns (c : Thread nD τ) arg8 fullShare xs) -∗ K ⟨⟩))
          ⊢ wp frame (wpE (defs₀ (F := F)) Variants.none c none) E (cc0__fused_body i arg2 harg2 arg3 harg3 arg4 harg4 arg5 harg5 arg6 harg6 arg7 harg7 arg8 harg8) K } := by
  refine ⟨?_, fun E K => ?run⟩
  case run =>
    simp only [cc0__fused_body_eq_skeleton]; unfold cc0__fused_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5; obtain rfl := harg8.eq_unread hfs
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    iexists _; isplitr; · ipureintro; exact harg8.read_unread _
    iexact HS

end Cert.KernelIdeal.Hand

end
-- ==== Proof.IdealRunA.lean ====
/-
  The kernel body at the first grid point: the three supports are computed and stored into the scratch, one 4096-row
  band each, then read back half a band at a time for relation 0; the accumulator block is set with the bias.
-/
import proofs.«173977_g25082609009178_cont_9to1_1719_7_alg».proof.Proof.IdealRunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The first grid point: row block 0, relation 0. -/
abbrev t0 : Fin cfg0.N := ⟨0, by decide⟩
abbrev i0 : grid0.Coords := grid0.coords t0

set_option maxHeartbeats 2000000 in
/-- The pieces the body's stores leave in the output buffer and in the scratch, with the body's triple: the scratch is
    taken at any contents and handed back with its three bands written. -/
noncomputable def kernelRun0_A (c : Dev nD) (arg2 : Memref sig .tc .vmem S4096x512 .f32) (harg2 : arg2.IsWhole) (arg3 : Memref sig .tc .vmem S3x512x512 .f32) (harg3 : arg3.IsWhole) (arg4 : Memref sig .tc .vmem S1x512x2048 .f32) (harg4 : arg4.IsWhole) (arg5 : Memref sig .tc .vmem S1x512x2048 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S12288x512 .bf16) (harg8 : arg8.IsWhole)
    (x0 : Vec F S4096x512 .f32) (x1 : Vec F S3x512x512 .f32) (x2 : Vec F S1x512x2048 .f32) (x3 : Vec F S1x512x2048 .f32) (x4 : Vec F S1x512 .f32) :
    Σ' (L5 : List (View.Piece (Elt F) S512x512 .f32)), { LS : List (View.Piece (Elt F) S12288x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS)) -∗ K ⟨⟩))
          ⊢ wp frame (wpE (defs₀ (F := F)) Variants.none c none) E (cc0__fused_body i0 arg2 harg2 arg3 harg3 arg4 harg4 arg5 harg5 arg6 harg6 arg7 harg7 arg8 harg8) K } := by
  refine ⟨?_, ?_, fun E K => ?run⟩
  case run =>
    simp only [cc0__fused_body_eq_skeleton]; unfold cc0__fused_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4
    sl_exec (disch := decide)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    iexists _; iexact HS

end Cert.KernelIdeal.Hand

end
-- ==== Proof.IdealFrame.lean ====
/-
  The frame of the graph-convolution kernel: what the accumulator block and the scratch hold after each grid point,
  the proof data over them, and the body's obligation at every point by the three control cases.
-/
import proofs.«173977_g25082609009178_cont_9to1_1719_7_alg».proof.Proof.IdealRunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What each case leaves -/

theorem cover0_A_5 (c : Dev nD) (arg2 : Memref sig .tc .vmem S4096x512 .f32) (harg2 : arg2.IsWhole) (arg3 : Memref sig .tc .vmem S3x512x512 .f32) (harg3 : arg3.IsWhole) (arg4 : Memref sig .tc .vmem S1x512x2048 .f32) (harg4 : arg4.IsWhole) (arg5 : Memref sig .tc .vmem S1x512x2048 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S12288x512 .bf16) (harg8 : arg8.IsWhole) (x0 : Vec F S4096x512 .f32) (x1 : Vec F S3x512x512 .f32) (x2 : Vec F S1x512x2048 .f32) (x3 : Vec F S1x512x2048 .f32) (x4 : Vec F S1x512 .f32) (y : S512x512.Idx) :
    ∃ pc ∈ (kernelRun0_A c arg2 harg2 arg3 harg3 arg4 harg4 arg5 harg5 arg6 harg6 arg7 harg7 arg8 harg8 x0 x1 x2 x3 x4).1, y ∈ pc.1.set :=
  View.cover_of_tiledL (kernelRun0_A c arg2 harg2 arg3 harg3 arg4 harg4 arg5 harg5 arg6 harg6 arg7 harg7 arg8 harg8 x0 x1 x2 x3 x4).1 S512x512.size (by sl_kernel_rfl) y

/-- The accumulator block after the first point. -/
def out0_A_5 (c : Dev nD) (arg2 : Memref sig .tc .vmem S4096x512 .f32) (harg2 : arg2.IsWhole) (arg3 : Memref sig .tc .vmem S3x512x512 .f32) (harg3 : arg3.IsWhole) (arg4 : Memref sig .tc .vmem S1x512x2048 .f32) (harg4 : arg4.IsWhole) (arg5 : Memref sig .tc .vmem S1x512x2048 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S12288x512 .bf16) (harg8 : arg8.IsWhole) (x0 : Vec F S4096x512 .f32) (x1 : Vec F S3x512x512 .f32) (x2 : Vec F S1x512x2048 .f32) (x3 : Vec F S1x512x2048 .f32) (x4 : Vec F S1x512 .f32) : Vec F S512x512 .f32 :=
  VO0_5.read (Elt F) (VO0_5.writes (Elt F) VO0_5.junk (kernelRun0_A c arg2 harg2 arg3 harg3 arg4 harg4 arg5 harg5 arg6 harg6 arg7 harg7 arg8 harg8 x0 x1 x2 x3 x4).1)

theorem scover0_A (c : Dev nD) (arg2 : Memref sig .tc .vmem S4096x512 .f32) (harg2 : arg2.IsWhole) (arg3 : Memref sig .tc .vmem S3x512x512 .f32) (harg3 : arg3.IsWhole) (arg4 : Memref sig .tc .vmem S1x512x2048 .f32) (harg4 : arg4.IsWhole) (arg5 : Memref sig .tc .vmem S1x512x2048 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S12288x512 .bf16) (harg8 : arg8.IsWhole) (x0 : Vec F S4096x512 .f32) (x1 : Vec F S3x512x512 .f32) (x2 : Vec F S1x512x2048 .f32) (x3 : Vec F S1x512x2048 .f32) (x4 : Vec F S1x512 .f32) (y : S12288x512.Idx) :
    ∃ pc ∈ (kernelRun0_A c arg2 harg2 arg3 harg3 arg4 harg4 arg5 harg5 arg6 harg6 arg7 harg7 arg8 harg8 x0 x1 x2 x3 x4).2.1, y ∈ pc.1.set :=
  View.cover_of_tiledL (kernelRun0_A c arg2 harg2 arg3 harg3 arg4 harg4 arg5 harg5 arg6 harg6 arg7 harg7 arg8 harg8 x0 x1 x2 x3 x4).2.1 S4096x512.size (by sl_kernel_rfl) y

/-- The scratch after the first point: the three supports, row-stacked. -/
def sout0_A (c : Dev nD) (arg2 : Memref sig .tc .vmem S4096x512 .f32) (harg2 : arg2.IsWhole) (arg3 : Memref sig .tc .vmem S3x512x512 .f32) (harg3 : arg3.IsWhole) (arg4 : Memref sig .tc .vmem S1x512x2048 .f32) (harg4 : arg4.IsWhole) (arg5 : Memref sig .tc .vmem S1x512x2048 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S12288x512 .bf16) (harg8 : arg8.IsWhole) (x0 : Vec F S4096x512 .f32) (x1 : Vec F S3x512x512 .f32) (x2 : Vec F S1x512x2048 .f32) (x3 : Vec F S1x512x2048 .f32) (x4 : Vec F S1x512 .f32) : Vec F S12288x512 .bf16 :=
  VS0.read (Elt F) (VS0.writes (Elt F) VS0.junk (kernelRun0_A c arg2 harg2 arg3 harg3 arg4 harg4 arg5 harg5 arg6 harg6 arg7 harg7 arg8 harg8 x0 x1 x2 x3 x4).2.1)

theorem cover0_B_5 (c : Dev nD) (i : grid0.Coords) (arg2 : Memref sig .tc .vmem S4096x512 .f32) (harg2 : arg2.IsWhole) (arg3 : Memref sig .tc .vmem S3x512x512 .f32) (harg3 : arg3.IsWhole) (arg4 : Memref sig .tc .vmem S1x512x2048 .f32) (harg4 : arg4.IsWhole) (arg5 : Memref sig .tc .vmem S1x512x2048 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S12288x512 .bf16) (harg8 : arg8.IsWhole) (hc0 : ¬cond0_0 i) (hc1 : cond0_1 i) (hc2 : ¬cond0_2 i) (x0 : Vec F S4096x512 .f32) (x1 : Vec F S3x512x512 .f32) (x2 : Vec F S1x512x2048 .f32) (x3 : Vec F S1x512x2048 .f32) (x4 : Vec F S1x512 .f32) (xs : Vec F S12288x512 .bf16) (y : S512x512.Idx) :
    ∃ pc ∈ (kernelRun0_B c i arg2 harg2 arg3 harg3 arg4 harg4 arg5 harg5 arg6 harg6 arg7 harg7 arg8 harg8 hc0 hc1 hc2 x0 x1 x2 x3 x4 xs).1, y ∈ pc.1.set :=
  View.cover_of_tiledL (kernelRun0_B c i arg2 harg2 arg3 harg3 arg4 harg4 arg5 harg5 arg6 harg6 arg7 harg7 arg8 harg8 hc0 hc1 hc2 x0 x1 x2 x3 x4 xs).1 S512x512.size (by sl_kernel_rfl) y

/-- The accumulator block after a relation-0 point of a later row block. -/
def out0_B_5 (c : Dev nD) (i : grid0.Coords) (arg2 : Memref sig .tc .vmem S4096x512 .f32) (harg2 : arg2.IsWhole) (arg3 : Memref sig .tc .vmem S3x512x512 .f32) (harg3 : arg3.IsWhole) (arg4 : Memref sig .tc .vmem S1x512x2048 .f32) (harg4 : arg4.IsWhole) (arg5 : Memref sig .tc .vmem S1x512x2048 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S12288x512 .bf16) (harg8 : arg8.IsWhole) (hc0 : ¬cond0_0 i) (hc1 : cond0_1 i) (hc2 : ¬cond0_2 i) (x0 : Vec F S4096x512 .f32) (x1 : Vec F S3x512x512 .f32) (x2 : Vec F S1x512x2048 .f32) (x3 : Vec F S1x512x2048 .f32) (x4 : Vec F S1x512 .f32) (xs : Vec F S12288x512 .bf16) : Vec F S512x512 .f32 :=
  VO0_5.read (Elt F) (VO0_5.writes (Elt F) VO0_5.junk (kernelRun0_B c i arg2 harg2 arg3 harg3 arg4 harg4 arg5 harg5 arg6 harg6 arg7 harg7 arg8 harg8 hc0 hc1 hc2 x0 x1 x2 x3 x4 xs).1)

theorem cover0_C_5 (c : Dev nD) (i : grid0.Coords) (arg2 : Memref sig .tc .vmem S4096x512 .f32) (harg2 : arg2.IsWhole) (arg3 : Memref sig .tc .vmem S3x512x512 .f32) (harg3 : arg3.IsWhole) (arg4 : Memref sig .tc .vmem S1x512x2048 .f32) (harg4 : arg4.IsWhole) (arg5 : Memref sig .tc .vmem S1x512x2048 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S12288x512 .bf16) (harg8 : arg8.IsWhole) (hc0 : ¬cond0_0 i) (hc1 : ¬cond0_1 i) (hc2 : cond0_2 i) (x0 : Vec F S4096x512 .f32) (x1 : Vec F S3x512x512 .f32) (x2 : Vec F S1x512x2048 .f32) (x3 : Vec F S1x512x2048 .f32) (x4 : Vec F S1x512 .f32) (xs : Vec F S12288x512 .bf16) (xo : Vec F S512x512 .f32) (y : S512x512.Idx) :
    ∃ pc ∈ (kernelRun0_C c i arg2 harg2 arg3 harg3 arg4 harg4 arg5 harg5 arg6 harg6 arg7 harg7 arg8 harg8 hc0 hc1 hc2 x0 x1 x2 x3 x4 xs xo).1, y ∈ pc.1.set :=
  View.cover_of_tiledL (kernelRun0_C c i arg2 harg2 arg3 harg3 arg4 harg4 arg5 harg5 arg6 harg6 arg7 harg7 arg8 harg8 hc0 hc1 hc2 x0 x1 x2 x3 x4 xs xo).1 S512x512.size (by sl_kernel_rfl) y

/-- The accumulator block after a point of relation 1 or 2, over what the point before left. -/
def out0_C_5 (c : Dev nD) (i : grid0.Coords) (arg2 : Memref sig .tc .vmem S4096x512 .f32) (harg2 : arg2.IsWhole) (arg3 : Memref sig .tc .vmem S3x512x512 .f32) (harg3 : arg3.IsWhole) (arg4 : Memref sig .tc .vmem S1x512x2048 .f32) (harg4 : arg4.IsWhole) (arg5 : Memref sig .tc .vmem S1x512x2048 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S12288x512 .bf16) (harg8 : arg8.IsWhole) (hc0 : ¬cond0_0 i) (hc1 : ¬cond0_1 i) (hc2 : cond0_2 i) (x0 : Vec F S4096x512 .f32) (x1 : Vec F S3x512x512 .f32) (x2 : Vec F S1x512x2048 .f32) (x3 : Vec F S1x512x2048 .f32) (x4 : Vec F S1x512 .f32) (xs : Vec F S12288x512 .bf16) (xo : Vec F S512x512 .f32) : Vec F S512x512 .f32 :=
  VO0_5.read (Elt F) (VO0_5.writes (Elt F) VO0_5.junk (kernelRun0_C c i arg2 harg2 arg3 harg3 arg4 harg4 arg5 harg5 arg6 harg6 arg7 harg7 arg8 harg8 hc0 hc1 hc2 x0 x1 x2 x3 x4 xs xo).1)

/-! ## Point by point -/

/-- The scratch from the first point on: what the first point stored, of the whole feature and weight arrays. -/
def scr (c : Dev nD) : Vec F S12288x512 .bf16 := sout0_A c (ms0_0 t0) (hs0_0 t0) (ms0_1 t0) (hs0_1 t0) (ms0_2 t0) (hs0_2 t0) (ms0_3 t0) (hs0_3 t0) (ms0_4 t0) (hs0_4 t0) (ms0_5 t0) (hs0_5 t0) scM0 (Memref.isWhole_whole _) (iblk m c 0 t0) (iblk m c 1 t0) (iblk m c 2 t0) (iblk m c 3 t0) (iblk m c 4 t0)

/-- The accumulator block after the body at position n: set at relation 0, added to at relations 1 and 2. -/
def outsAt0 (c : Dev nD) : (n : ℕ) → n < cfg0.N → Vec F S512x512 .f32
  | 0, hn => out0_A_5 c (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0 (Memref.isWhole_whole _) (iblk m c 0 ⟨0, hn⟩) (iblk m c 1 ⟨0, hn⟩) (iblk m c 2 ⟨0, hn⟩) (iblk m c 3 ⟨0, hn⟩) (iblk m c 4 ⟨0, hn⟩)
  | n + 1, hn =>
    if h1 : (n + 1) % 3 = 0 then
      out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) (fun h => Nat.succ_ne_zero n ((hcond0_0 ⟨n + 1, hn⟩).mp h)) ((hcond0_1 ⟨n + 1, hn⟩).mpr h1) (fun h => ((hcond0_2 ⟨n + 1, hn⟩).mp h) h1) (iblk m c 0 ⟨n + 1, hn⟩) (iblk m c 1 ⟨n + 1, hn⟩) (iblk m c 2 ⟨n + 1, hn⟩) (iblk m c 3 ⟨n + 1, hn⟩) (iblk m c 4 ⟨n + 1, hn⟩) (scr m c)
    else
      out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) (fun h => Nat.succ_ne_zero n ((hcond0_0 ⟨n + 1, hn⟩).mp h)) (fun h => h1 ((hcond0_1 ⟨n + 1, hn⟩).mp h)) ((hcond0_2 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (scr m c) (outsAt0 c n (Nat.lt_of_succ_lt hn))

theorem outsAt0_A (c : Dev nD) (t : Fin cfg0.N) (h0 : t.val = 0) :
    outsAt0 m c t.val t.isLt = out0_A_5 c (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (iblk m c 0 t) (iblk m c 1 t) (iblk m c 2 t) (iblk m c 3 t) (iblk m c 4 t) := by
  obtain ⟨n, hn⟩ := t
  cases n with
  | zero => rfl
  | succ n => exact absurd h0 (Nat.succ_ne_zero n)

theorem outsAt0_B (c : Dev nD) (t : Fin cfg0.N) (h0 : ¬t.val = 0) (h1 : t.val % 3 = 0) :
    outsAt0 m c t.val t.isLt = out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) ((hcond0_1 t).mpr h1) (fun h => ((hcond0_2 t).mp h) h1) (iblk m c 0 t) (iblk m c 1 t) (iblk m c 2 t) (iblk m c 3 t) (iblk m c 4 t) (scr m c) := by
  obtain ⟨n, hn⟩ := t
  cases n with
  | zero => exact absurd rfl h0
  | succ n => exact (dif_pos h1).trans rfl

theorem outsAt0_C (c : Dev nD) (t : Fin cfg0.N) (h0 : ¬t.val = 0) (h1 : ¬t.val % 3 = 0) :
    outsAt0 m c t.val t.isLt = out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) (fun h => h1 ((hcond0_1 t).mp h)) ((hcond0_2 t).mpr h1) (iblk m c 0 t) (iblk m c 1 t) (iblk m c 2 t) (iblk m c 3 t) (iblk m c 4 t) (scr m c) (outsAt0 m c (t.val - 1) (Nat.lt_of_le_of_lt (Nat.sub_le _ _) t.isLt)) := by
  obtain ⟨n, hn⟩ := t
  cases n with
  | zero => exact absurd rfl h0
  | succ n => exact (dif_neg h1).trans rfl

/-- The region invariant before position n: the scratch at anything before the first point, at the stored supports after. -/
def PhiS (c : Dev nD) : ℕ → sProp 𝕄
  | 0 => iprop(∃ d, owns (c : Thread nD τ) scM0 fullShare d)
  | _ + 1 => owns (c : Thread nD τ) scM0 fullShare (scr m c)

theorem PhiS_pos (c : Dev nD) (n : ℕ) (hz : n ≠ 0) : PhiS m c n = owns (c : Thread nD τ) scM0 fullShare (scr m c) := by
  cases n with
  | zero => exact absurd rfl hz
  | succ n => rfl

/-! ## The proof data -/

/-- The arrays as the region finds them; each input buffer at its block; the accumulator at outsAt0; the adjacency array,
    read through two windows, lent to each at half the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outsAt0 m c t.val t.isLt
  Φ t := PhiS m c t.val
  q w := match w with
    | ⟨2, _⟩ => fullShare.left
    | ⟨3, _⟩ => fullShare.right
    | _ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outsAt0 m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- At relation 0 the accumulator's buffer is fresh: it is the first point, or the block before has just been written back. -/
theorem before0_5_reset (c : Dev nD) (t : Fin cfg0.N) (h1 : t.val % 3 = 0) (d) : (dats m 0 c).before 5 t d = d := by
  refine Pipeline.Dat.before_out_reset (dats m 0 c) 5 rfl t ?_ d
  by_cases hz : t.val = 0
  · exact .inl hz
  · refine .inr ⟨hz, (flush0_5 _).mpr ?_⟩
    show (t.val - 1) % 3 = 2
    omega

/-- At relations 1 and 2 the accumulator's buffer holds what the point before left. -/
theorem before0_5_kept (c : Dev nD) (t : Fin cfg0.N) (h1 : ¬t.val % 3 = 0) (d) :
    (dats m 0 c).before 5 t d = outsAt0 m c (t.val - 1) (Nat.lt_of_le_of_lt (Nat.sub_le _ _) t.isLt) := by
  have hz : t.val ≠ 0 := fun h => h1 (by rw [h])
  have hfl : (cfg0.win 5).flush ⟨t.val - 1, Nat.lt_of_le_of_lt (Nat.sub_le _ _) t.isLt⟩ = false := by
    rw [Bool.eq_false_iff]
    intro h
    have h2 : (t.val - 1) % 3 = 2 := (flush0_5 _).mp h
    omega
  rw [Pipeline.Dat.before_out_kept (dats m 0 c) 5 rfl t hz hfl live0_5 (fun _ _ => rfl) d, after0_5]

theorem leaves0_0 (c : Dev nD) (t : Fin cfg0.N) : (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
    unfold Dat.leavesExact; rw [liveAt0_0 t], after0_0]
theorem leaves0_1 (c : Dev nD) (t : Fin cfg0.N) : (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by
    unfold Dat.leavesExact; rw [liveAt0_1 t], after0_1]
theorem leaves0_2 (c : Dev nD) (t : Fin cfg0.N) : (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by
    unfold Dat.leavesExact; rw [liveAt0_2 t], after0_2]
theorem leaves0_3 (c : Dev nD) (t : Fin cfg0.N) : (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from by
    unfold Dat.leavesExact; rw [liveAt0_3 t], after0_3]
theorem leaves0_4 (c : Dev nD) (t : Fin cfg0.N) : (dats m 0 c).leavesExact 4 t = owns (c : Thread nD τ) (ms0_4 t) fullShare (iblk m c 4 t) := by
  rw [show (dats m 0 c).leavesExact 4 t = owns (c : Thread nD τ) (ms0_4 t) fullShare ((dats m 0 c).after 4 t) from by
    unfold Dat.leavesExact; rw [liveAt0_4 t], after0_4]
theorem leaves0_5 (c : Dev nD) (t : Fin cfg0.N) : (dats m 0 c).leavesExact 5 t = owns (c : Thread nD τ) (ms0_5 t) fullShare (outsAt0 m c t.val t.isLt) := by
  rw [show (dats m 0 c).leavesExact 5 t = owns (c : Thread nD τ) (ms0_5 t) fullShare ((dats m 0 c).after 5 t) from by
    unfold Dat.leavesExact; rw [liveAt0_5 t], after0_5]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 4800000 in
/-- The body at any point, by the three control cases. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = owns (c : Thread nD τ) scM0 fullShare (scr m c) from rfl]
  rw [leaves0_0, leaves0_1, leaves0_2, leaves0_3, leaves0_4, leaves0_5]
  by_cases h1 : t.val % 3 = 0
  · simp only [before0_5_reset m c t h1]
    by_cases hz : t.val = 0
    · obtain rfl : t = t0 := Fin.ext hz
      rw [outsAt0_A m c t0 rfl]
      rw [show (dats m 0 c).Φ t0.castSucc = iprop(∃ d, owns (c : Thread nD τ) scM0 fullShare d) from rfl]
      iintro ⟨⟨%ds, HS⟩, Ho, ⟨%d0, H0⟩, ⟨%d1, H1⟩, ⟨%d2, H2⟩, ⟨%d3, H3⟩, ⟨%d4, H4⟩, ⟨%d5, H5⟩⟩
      iapply ((kernelRun0_A c (ms0_0 t0) (hs0_0 t0) (ms0_1 t0) (hs0_1 t0) (ms0_2 t0) (hs0_2 t0) (ms0_3 t0) (hs0_3 t0) (ms0_4 t0) (hs0_4 t0) (ms0_5 t0) (hs0_5 t0) scM0 (Memref.isWhole_whole _) (iblk m c 0 t0) (iblk m c 1 t0) (iblk m c 2 t0) (iblk m c 3 t0) (iblk m c 4 t0)).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexists _; iexact HS
      iintro ⟨H0, H1, H2, H3, H4, ⟨%e5, H5⟩, ⟨%es, HS⟩⟩
      isplitl [HS]
      · unfold scr sout0_A owns; iexists _; isplitr
        swap; · iexact HS
        ipureintro; exact View.read_writes_of_cover _ _ _ _ _ (scover0_A c (ms0_0 t0) (hs0_0 t0) (ms0_1 t0) (hs0_1 t0) (ms0_2 t0) (hs0_2 t0) (ms0_3 t0) (hs0_3 t0) (ms0_4 t0) (hs0_4 t0) (ms0_5 t0) (hs0_5 t0) scM0 (Memref.isWhole_whole _) (iblk m c 0 t0) (iblk m c 1 t0) (iblk m c 2 t0) (iblk m c 3 t0) (iblk m c 4 t0))
      isplitl [Ho]; · iexact Ho
      isplitl [H0]; · iexact H0
      isplitl [H1]; · iexact H1
      isplitl [H2]; · iexact H2
      isplitl [H3]; · iexact H3
      isplitl [H4]; · iexact H4
      unfold out0_A_5 owns; iexists _; isplitr
      swap; · iexact H5
      ipureintro; exact View.read_writes_of_cover _ _ _ _ _ (cover0_A_5 c (ms0_0 t0) (hs0_0 t0) (ms0_1 t0) (hs0_1 t0) (ms0_2 t0) (hs0_2 t0) (ms0_3 t0) (hs0_3 t0) (ms0_4 t0) (hs0_4 t0) (ms0_5 t0) (hs0_5 t0) scM0 (Memref.isWhole_whole _) (iblk m c 0 t0) (iblk m c 1 t0) (iblk m c 2 t0) (iblk m c 3 t0) (iblk m c 4 t0))
    · rw [outsAt0_B m c t hz h1]
      rw [show (dats m 0 c).Φ t.castSucc = PhiS m c t.val from rfl, PhiS_pos m c _ hz]
      iintro ⟨HS, Ho, ⟨%d0, H0⟩, ⟨%d1, H1⟩, ⟨%d2, H2⟩, ⟨%d3, H3⟩, ⟨%d4, H4⟩, ⟨%d5, H5⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => hz ((hcond0_0 t).mp h)) ((hcond0_1 t).mpr h1) (fun h => ((hcond0_2 t).mp h) h1) (iblk m c 0 t) (iblk m c 1 t) (iblk m c 2 t) (iblk m c 3 t) (iblk m c 4 t) (scr m c)).2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      unfold out0_B_5 owns; iexists _; isplitr
      swap; · iexact H5
      ipureintro; exact View.read_writes_of_cover _ _ _ _ _ (cover0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) _ _ _ (iblk m c 0 t) (iblk m c 1 t) (iblk m c 2 t) (iblk m c 3 t) (iblk m c 4 t) (scr m c))
  · have hz : ¬t.val = 0 := fun h => h1 (by rw [h])
    simp only [before0_5_kept m c t h1]
    rw [outsAt0_C m c t hz h1]
    rw [show (dats m 0 c).Φ t.castSucc = PhiS m c t.val from rfl, PhiS_pos m c _ hz]
    iintro ⟨HS, Ho, ⟨%d0, H0⟩, ⟨%d1, H1⟩, ⟨%d2, H2⟩, ⟨%d3, H3⟩, ⟨%d4, H4⟩, ⟨%d5, H5⟩⟩
    iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => hz ((hcond0_0 t).mp h)) (fun h => h1 ((hcond0_1 t).mp h)) ((hcond0_2 t).mpr h1) (iblk m c 0 t) (iblk m c 1 t) (iblk m c 2 t) (iblk m c 3 t) (iblk m c 4 t) (scr m c) _).2 Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, ⟨%e5, H5⟩, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    unfold out0_C_5 owns; iexists _; isplitr
    swap; · iexact H5
    ipureintro; exact View.read_writes_of_cover _ _ _ _ _ (cover0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) _ _ _ (iblk m c 0 t) (iblk m c 1 t) (iblk m c 2 t) (iblk m c 3 t) (iblk m c 4 t) (scr m c) _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.IdealValA.lean ====
/-
  What each control case leaves, as the body's payloads: the scratch holds the three supports, band r (rows
  4096 r to 4096 r + 4095) the product of the features with relation r's scaled weights; the accumulator block is
  the two half-contractions' sum, plus the bias row at relation 0, added to what it held at relations 1 and 2.
-/
import proofs.«173977_g25082609009178_cont_9to1_1719_7_alg».proof.Proof.IdealFrame
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The three bands the first point stores into the scratch, last store first. -/
def bands (x0 : Vec F S4096x512 .f32) (x1 : Vec F S3x512x512 .f32) : List (View.Piece (Elt F) S12288x512 .bf16) :=
  [⟨Rect.unit (s := S12288x512) ![8192, 0] S4096x512.size inb_S12288x512_S4096x512_8192_0,
      k0_pay4 x0 (View.ld x1 (Rect.unit (s := S3x512x512) ![2, 0, 0] S1x512x512.size inb_S3x512x512_S1x512x512_2_0_0))⟩,
   ⟨Rect.unit (s := S12288x512) ![4096, 0] S4096x512.size inb_S12288x512_S4096x512_4096_0,
      k0_pay3 x0 (View.ld x1 (Rect.unit (s := S3x512x512) ![1, 0, 0] S1x512x512.size inb_S3x512x512_S1x512x512_1_0_0))⟩,
   ⟨Rect.unit (s := S12288x512) ![0, 0] S4096x512.size inb_S12288x512_S4096x512_0_0,
      k0_pay2 x0 (View.ld x1 (Rect.unit (s := S3x512x512) ![0, 0, 0] S1x512x512.size inb_S3x512x512_S1x512x512_0_0_0))⟩]

/-- The scratch from the first point on, of the feature and weight arrays. -/
def supp (x0 : Vec F S4096x512 .f32) (x1 : Vec F S3x512x512 .f32) : Vec F S12288x512 .bf16 := View.canon (bands x0 x1)

/-- The half band of the scratch the body reads first at grid point i. -/
abbrev lowerOf (i : grid0.Coords) (xs : Vec F S12288x512 .bf16) : Vec F S2048x512 .bf16 :=
  View.ld xs (Rect.unit (s := S12288x512) (k0_off1 i) S2048x512.size (k0_off1_inb i))
/-- The half band it reads second. -/
abbrev upperOf (i : grid0.Coords) (xs : Vec F S12288x512 .bf16) : Vec F S2048x512 .bf16 :=
  View.ld xs (Rect.unit (s := S12288x512) (k0_off2 i) S2048x512.size (k0_off2_inb i))

theorem sout_A (c : Dev nD) (arg2 : Memref sig .tc .vmem S4096x512 .f32) (harg2 : arg2.IsWhole) (arg3 : Memref sig .tc .vmem S3x512x512 .f32) (harg3 : arg3.IsWhole) (arg4 : Memref sig .tc .vmem S1x512x2048 .f32) (harg4 : arg4.IsWhole) (arg5 : Memref sig .tc .vmem S1x512x2048 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S12288x512 .bf16) (harg8 : arg8.IsWhole) (x0 : Vec F S4096x512 .f32) (x1 : Vec F S3x512x512 .f32) (x2 : Vec F S1x512x2048 .f32) (x3 : Vec F S1x512x2048 .f32) (x4 : Vec F S1x512 .f32) :
    sout0_A c arg2 harg2 arg3 harg3 arg4 harg4 arg5 harg5 arg6 harg6 arg7 harg7 arg8 harg8 x0 x1 x2 x3 x4 = supp x0 x1 := by
  unfold sout0_A
  rw [View.read_writes_eq_canon _ _ _ (scover0_A c arg2 harg2 arg3 harg3 arg4 harg4 arg5 harg5 arg6 harg6 arg7 harg7 arg8 harg8 x0 x1 x2 x3 x4)]
  unfold kernelRun0_A
  dsimp only
  sl_unfold_run_names
  simp only [View.readAt_eq_ld, harg2.read_unread, harg3.read_unread, View.ld_unit_zero (S := S4096x512) hz2]
  all_goals rfl

theorem bands_cover (x0 : Vec F S4096x512 .f32) (x1 : Vec F S3x512x512 .f32) (y : S12288x512.Idx) :
    ∃ pc ∈ bands x0 x1, y ∈ pc.1.set :=
  View.cover_of_tiledL (bands x0 x1) S4096x512.size (by sl_kernel_rfl) y

theorem out_A (c : Dev nD) (arg2 : Memref sig .tc .vmem S4096x512 .f32) (harg2 : arg2.IsWhole) (arg3 : Memref sig .tc .vmem S3x512x512 .f32) (harg3 : arg3.IsWhole) (arg4 : Memref sig .tc .vmem S1x512x2048 .f32) (harg4 : arg4.IsWhole) (arg5 : Memref sig .tc .vmem S1x512x2048 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S12288x512 .bf16) (harg8 : arg8.IsWhole) (x0 : Vec F S4096x512 .f32) (x1 : Vec F S3x512x512 .f32) (x2 : Vec F S1x512x2048 .f32) (x3 : Vec F S1x512x2048 .f32) (x4 : Vec F S1x512 .f32) :
    out0_A_5 c arg2 harg2 arg3 harg3 arg4 harg4 arg5 harg5 arg6 harg6 arg7 harg7 arg8 harg8 x0 x1 x2 x3 x4 = k0_pay6 x2 x3 (lowerOf i0 (supp x0 x1)) (upperOf i0 (supp x0 x1)) x4 := by
  unfold out0_A_5
  rw [View.read_writes_eq_canon _ _ _ (cover0_A_5 c arg2 harg2 arg3 harg3 arg4 harg4 arg5 harg5 arg6 harg6 arg7 harg7 arg8 harg8 x0 x1 x2 x3 x4)]
  unfold kernelRun0_A
  dsimp only
  sl_unfold_run_names
  rw [View.canon_unit_zero hz2]
  simp only [View.readAt_eq_ld, harg2.read_unread, harg3.read_unread, harg4.read_unread, harg5.read_unread, harg6.read_unread,
    View.ld_unit_zero (S := S4096x512) hz2, View.ld_unit_zero (S := S1x512x2048) hz3, View.ld_unit_zero (S := S1x512) hz2]
  have hcov : ∀ r : Rect S12288x512, arg8.view.readCov (bands x0 x1) r.toLoadRect = View.ld (View.canon (bands x0 x1)) r :=
    fun r => View.readCov_eq_canon_ld _ _ r (bands_cover x0 x1)
  exact congrArg₂ (fun a b => k0_pay6 x2 x3 a b x4) (hcov _) (hcov _)

theorem out_B (c : Dev nD) (i : grid0.Coords) (arg2 : Memref sig .tc .vmem S4096x512 .f32) (harg2 : arg2.IsWhole) (arg3 : Memref sig .tc .vmem S3x512x512 .f32) (harg3 : arg3.IsWhole) (arg4 : Memref sig .tc .vmem S1x512x2048 .f32) (harg4 : arg4.IsWhole) (arg5 : Memref sig .tc .vmem S1x512x2048 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S12288x512 .bf16) (harg8 : arg8.IsWhole) (hc0 : ¬cond0_0 i) (hc1 : cond0_1 i) (hc2 : ¬cond0_2 i) (x0 : Vec F S4096x512 .f32) (x1 : Vec F S3x512x512 .f32) (x2 : Vec F S1x512x2048 .f32) (x3 : Vec F S1x512x2048 .f32) (x4 : Vec F S1x512 .f32) (xs : Vec F S12288x512 .bf16) :
    out0_B_5 c i arg2 harg2 arg3 harg3 arg4 harg4 arg5 harg5 arg6 harg6 arg7 harg7 arg8 harg8 hc0 hc1 hc2 x0 x1 x2 x3 x4 xs = k0_pay6 x2 x3 (lowerOf i xs) (upperOf i xs) x4 := by
  unfold out0_B_5
  rw [View.read_writes_eq_canon _ _ _ (cover0_B_5 c i arg2 harg2 arg3 harg3 arg4 harg4 arg5 harg5 arg6 harg6 arg7 harg7 arg8 harg8 hc0 hc1 hc2 x0 x1 x2 x3 x4 xs)]
  unfold kernelRun0_B
  dsimp only
  rw [View.canon_unit_zero hz2]
  simp only [View.readAt_eq_ld, harg4.read_unread, harg5.read_unread, harg6.read_unread, harg8.read_unread,
    View.ld_unit_zero (S := S1x512x2048) hz3, View.ld_unit_zero (S := S1x512) hz2]
  all_goals rfl

theorem out_C (c : Dev nD) (i : grid0.Coords) (arg2 : Memref sig .tc .vmem S4096x512 .f32) (harg2 : arg2.IsWhole) (arg3 : Memref sig .tc .vmem S3x512x512 .f32) (harg3 : arg3.IsWhole) (arg4 : Memref sig .tc .vmem S1x512x2048 .f32) (harg4 : arg4.IsWhole) (arg5 : Memref sig .tc .vmem S1x512x2048 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S12288x512 .bf16) (harg8 : arg8.IsWhole) (hc0 : ¬cond0_0 i) (hc1 : ¬cond0_1 i) (hc2 : cond0_2 i) (x0 : Vec F S4096x512 .f32) (x1 : Vec F S3x512x512 .f32) (x2 : Vec F S1x512x2048 .f32) (x3 : Vec F S1x512x2048 .f32) (x4 : Vec F S1x512 .f32) (xs : Vec F S12288x512 .bf16) (xo : Vec F S512x512 .f32) :
    out0_C_5 c i arg2 harg2 arg3 harg3 arg4 harg4 arg5 harg5 arg6 harg6 arg7 harg7 arg8 harg8 hc0 hc1 hc2 x0 x1 x2 x3 x4 xs xo = k0_pay7 x2 x3 (lowerOf i xs) (upperOf i xs) xo := by
  unfold out0_C_5
  rw [View.read_writes_eq_canon _ _ _ (cover0_C_5 c i arg2 harg2 arg3 harg3 arg4 harg4 arg5 harg5 arg6 harg6 arg7 harg7 arg8 harg8 hc0 hc1 hc2 x0 x1 x2 x3 x4 xs xo)]
  unfold kernelRun0_C
  dsimp only
  rw [View.canon_unit_zero hz2]
  simp only [View.readAt_eq_ld, harg4.read_unread, harg5.read_unread, harg7.read_unread, harg8.read_unread,
    View.ld_unit_zero (S := S1x512x2048) hz3, View.ld_unit_zero (S := S512x512) hz2]
  all_goals rfl

end Cert.KernelIdeal.Hand

end
-- ==== Proof.Spec.lean ====
/-
  The graph convolution as one function of its four argument arrays, over the extended reals.

  With features `X : [4096, 512]`, adjacencies `A : [3, 4096, 4096]`, weights `W : [3, 512, 512]` and bias
  `b : [512]`, relation `r`'s scaled support is `S r c j = ∑ f, X (c, f) * (W (r, f, j) * (1/3))`, its
  aggregation of node `i` the contraction of row `i` of `A r` with column `j` of `S r`, taken as the sum of
  its lower half (`c < 2048`) and its upper half, and the result at `(i, j)` is
  `((agg 0 + b j) + agg 1) + agg 2`: the order in which the accumulator is filled, relation by relation.
-/
import Idealize.ShloMosaic.Lib.ValueIdx
import Idealize.ShloMosaic.PureOps.Ideal

noncomputable section

namespace Cert.GraphConv

open Idealize.ShloMosaic Idealize.ShloMosaic.ValueIdx

abbrev SX : Shape := ⟨2, ![4096, 512]⟩
abbrev SA : Shape := ⟨3, ![3, 4096, 4096]⟩
abbrev SW : Shape := ⟨3, ![3, 512, 512]⟩
abbrev SB : Shape := ⟨1, ![512]⟩

/-- The lower half of the contraction range, as a node index. -/
abbrev lo (c : Fin 2048) : Fin 4096 := ⟨c.val, by omega⟩
/-- The upper half of the contraction range, as a node index. -/
abbrev hi (c : Fin 2048) : Fin 4096 := ⟨2048 + c.val, by omega⟩

/-- Relation `r`'s support with the mean's factor folded into the weights. -/
def support (X : SX.Idx → EReal) (W : SW.Idx → EReal) (r : Fin 3) (c : Fin 4096) (j : Fin 512) : EReal :=
  ∑ f : Fin 512, X (ix2 c f) * (W (ix3 r f j) * ((1 / 3 : ℝ) : EReal))

/-- Relation `r`'s aggregation at `(i, j)`: the lower half of the contraction plus the upper half. -/
def agg (X : SX.Idx → EReal) (A : SA.Idx → EReal) (W : SW.Idx → EReal) (r : Fin 3) (i : Fin 4096) (j : Fin 512) : EReal :=
  (∑ c : Fin 2048, A (ix3 r i (lo c)) * support X W r (lo c) j)
    + ∑ c : Fin 2048, A (ix3 r i (hi c)) * support X W r (hi c) j

/-- The result: the bias joins after relation 0, then relations 1 and 2 are added in turn. -/
def kernelForm (X : SX.Idx → EReal) (A : SA.Idx → EReal) (W : SW.Idx → EReal) (b : SB.Idx → EReal) : SX.Idx → EReal :=
  fun y => ((agg X A W 0 (y 0) (y 1) + b (ix1 (y 1))) + agg X A W 1 (y 0) (y 1)) + agg X A W 2 (y 0) (y 1)

end Cert.GraphConv

end
-- ==== Proof.IdealValB.lean ====
/-
  Where each window's block sits, at the ideal instance. Grid point t is row block t / 3 and relation t % 3: the two
  adjacency windows read rows 512 (t / 3) + p of relation t % 3, columns k and 2048 + k; the features, the weights and
  the bias row are read whole; the scratch is read at rows 4096 (t % 3) + k and 4096 (t % 3) + 2048 + k.
-/
import proofs.«173977_g25082609009178_cont_9to1_1719_7_alg».proof.Proof.IdealValA
import proofs.«173977_g25082609009178_cont_9to1_1719_7_alg».proof.Proof.Spec
import Idealize.ShloMosaic.Lib.ValueIdx
import Idealize.ShloMosaic.Lib.Pipeline.Value
import Idealize.ShloMosaic.Lib.StableHlo.Run

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-! ## The index maps and the scratch offsets, decided over the grid -/

theorem idx0_0 : ∀ t : Fin cfg0.N, win0_0.index t (0 : Fin 2) = 0 ∧ win0_0.index t (1 : Fin 2) = 0 :=
  (by decide +kernel : ∀ t : Fin grid0.N, _)
theorem idx0_1 : ∀ t : Fin cfg0.N, win0_1.index t (0 : Fin 3) = 0 ∧ win0_1.index t (1 : Fin 3) = 0 ∧ win0_1.index t (2 : Fin 3) = 0 :=
  (by decide +kernel : ∀ t : Fin grid0.N, _)
theorem idx0_2 : ∀ t : Fin cfg0.N, win0_2.index t (0 : Fin 3) = t.val % 3 ∧ win0_2.index t (1 : Fin 3) = t.val / 3 ∧ win0_2.index t (2 : Fin 3) = 0 :=
  (by decide +kernel : ∀ t : Fin grid0.N, _)
theorem idx0_3 : ∀ t : Fin cfg0.N, win0_3.index t (0 : Fin 3) = t.val % 3 ∧ win0_3.index t (1 : Fin 3) = t.val / 3 ∧ win0_3.index t (2 : Fin 3) = 1 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = t.val / 3 ∧ win0_5.index t (1 : Fin 2) = 0 :=
  (by decide +kernel : ∀ t : Fin grid0.N, _)
theorem off1_eq : ∀ t : Fin cfg0.N, k0_off1 (grid0.coords t) (0 : Fin 2) = 4096 * (t.val % 3) ∧ k0_off1 (grid0.coords t) (1 : Fin 2) = 0 :=
  (by decide +kernel : ∀ t : Fin grid0.N, _)
theorem off2_eq : ∀ t : Fin cfg0.N, k0_off2 (grid0.coords t) (0 : Fin 2) = 4096 * (t.val % 3) + 2048 ∧ k0_off2 (grid0.coords t) (1 : Fin 2) = 0 :=
  (by decide +kernel : ∀ t : Fin grid0.N, _)

theorem lt24 (t : Fin cfg0.N) : t.val < 24 := lt_of_lt_of_eq t.isLt (show cfg0.N = 24 from N_0)

/-- The relation of grid point t. -/
def rel (t : Fin cfg0.N) : Fin 3 := ⟨t.val % 3, Nat.mod_lt _ (by decide)⟩
/-- Row p of grid point t's row block, as a node. -/
def row (t : Fin cfg0.N) (p : Fin 512) : Fin 4096 := ⟨512 * (t.val / 3) + p.val, by have := lt24 t; have := p.isLt; omega⟩
/-- Row k of relation r's band of the scratch. -/
def bandRow (r : Fin 3) (k : Fin 4096) : Fin 12288 := ⟨4096 * r.val + k.val, by have := r.isLt; have := k.isLt; omega⟩

/-! ## The blocks, read -/

theorem iblk0_apply (c : Dev nD) (t : Fin cfg0.N) (y : S4096x512.Idx) :
    (iblk m c 0 t : Vec Ideal S4096x512 .f32) y = V m c main_arg0 y := by
  unfold iblk
  show V m c main_arg0 (((cfg0.win 0).blk t).view.emb y) = V m c main_arg0 y
  congr 1
  funext a; apply Fin.ext
  obtain ⟨e0, e1⟩ := idx0_0 t
  match a with
  | ⟨0, _⟩ => show win0_0.index t (0 : Fin 2) * 4096 + 1 * (y 0).val = (y 0).val; omega
  | ⟨1, _⟩ => show win0_0.index t (1 : Fin 2) * 512 + 1 * (y 1).val = (y 1).val; omega

theorem iblk1_apply (c : Dev nD) (t : Fin cfg0.N) (y : S3x512x512.Idx) :
    (iblk m c 1 t : Vec Ideal S3x512x512 .f32) y = V m c main_arg2 y := by
  unfold iblk
  show V m c main_arg2 (((cfg0.win 1).blk t).view.emb y) = V m c main_arg2 y
  congr 1
  funext a; apply Fin.ext
  obtain ⟨e0, e1, e2⟩ := idx0_1 t
  match a with
  | ⟨0, _⟩ => show win0_1.index t (0 : Fin 3) * 3 + 1 * (y 0).val = (y 0).val; omega
  | ⟨1, _⟩ => show win0_1.index t (1 : Fin 3) * 512 + 1 * (y 1).val = (y 1).val; omega
  | ⟨2, _⟩ => show win0_1.index t (2 : Fin 3) * 512 + 1 * (y 2).val = (y 2).val; omega

theorem iblk2_apply (c : Dev nD) (t : Fin cfg0.N) (p : Fin 512) (k : Fin 2048) :
    (iblk m c 2 t : Vec Ideal S1x512x2048 .f32) (ix3 0 p k) = V m c main_arg1 (ix3 (rel t) (row t p) (GraphConv.lo k)) := by
  unfold iblk
  show V m c main_arg1 (((cfg0.win 2).blk t).view.emb (ix3 0 p k)) = V m c main_arg1 (ix3 (rel t) (row t p) (GraphConv.lo k))
  congr 1
  funext a; apply Fin.ext
  obtain ⟨e0, e1, e2⟩ := idx0_2 t
  match a with
  | ⟨0, _⟩ => show win0_2.index t (0 : Fin 3) * 1 + 1 * 0 = t.val % 3; omega
  | ⟨1, _⟩ => show win0_2.index t (1 : Fin 3) * 512 + 1 * p.val = 512 * (t.val / 3) + p.val; omega
  | ⟨2, _⟩ => show win0_2.index t (2 : Fin 3) * 2048 + 1 * k.val = k.val; omega

theorem iblk3_apply (c : Dev nD) (t : Fin cfg0.N) (p : Fin 512) (k : Fin 2048) :
    (iblk m c 3 t : Vec Ideal S1x512x2048 .f32) (ix3 0 p k) = V m c main_arg1 (ix3 (rel t) (row t p) (GraphConv.hi k)) := by
  unfold iblk
  show V m c main_arg1 (((cfg0.win 3).blk t).view.emb (ix3 0 p k)) = V m c main_arg1 (ix3 (rel t) (row t p) (GraphConv.hi k))
  congr 1
  funext a; apply Fin.ext
  obtain ⟨e0, e1, e2⟩ := idx0_3 t
  match a with
  | ⟨0, _⟩ => show win0_3.index t (0 : Fin 3) * 1 + 1 * 0 = t.val % 3; omega
  | ⟨1, _⟩ => show win0_3.index t (1 : Fin 3) * 512 + 1 * p.val = 512 * (t.val / 3) + p.val; omega
  | ⟨2, _⟩ => show win0_3.index t (2 : Fin 3) * 2048 + 1 * k.val = 2048 + k.val; omega

theorem iblk4_apply (c : Dev nD) (t : Fin cfg0.N) (y : S1x512.Idx) :
    (iblk m c 4 t : Vec Ideal S1x512 .f32) y = V m c main_v0 y := by
  unfold iblk
  show V m c main_v0 (((cfg0.win 4).blk t).view.emb y) = V m c main_v0 y
  congr 1
  funext a; apply Fin.ext
  obtain ⟨e0, e1⟩ := idx0_4 t
  match a with
  | ⟨0, _⟩ => show win0_4.index t (0 : Fin 2) * 1 + 1 * (y 0).val = (y 0).val; omega
  | ⟨1, _⟩ => show win0_4.index t (1 : Fin 2) * 512 + 1 * (y 1).val = (y 1).val; omega

/-- The bias row the region finds is the bias, reshaped. -/
theorem V_main_v0_apply (c : Dev nD) (q : Fin 512) :
    (V m c main_v0 : S1x512.Idx → EReal) (ix2 0 q) = m ((c : Thread nD τ).loc main_arg3) (ix1 q) := by
  have e : (V m c main_v0 : S1x512.Idx → EReal) = shapeCast S1x512 (m ((c : Thread nD τ).loc main_arg3)) shapeCasts_S512_S1x512 := by
    dsimp only [V, hostOps0]; after_results; rfl
  rw [e]
  refine shapeCast_apply _ _ (ix2 0 q) (ix1 q) ?_
  rw [Shape.rowMajor_val_one, Shape.rowMajor_val_two]
  show q.val = 0 * 512 + q.val
  omega

/-! ## The scratch, read half a band at a time -/

theorem lowerOf_apply (t : Fin cfg0.N) (xs : Vec Ideal S12288x512 .bf16) (k : Fin 2048) (q : Fin 512) :
    lowerOf (grid0.coords t) xs (ix2 k q) = xs (ix2 (bandRow (rel t) (GraphConv.lo k)) q) := by
  show xs ((Rect.unit (s := S12288x512) (k0_off1 (grid0.coords t)) S2048x512.size (k0_off1_inb (grid0.coords t))).idx (ix2 k q)) = _
  congr 1
  funext a; apply Fin.ext
  obtain ⟨e0, e1⟩ := off1_eq t
  match a with
  | ⟨0, _⟩ => show k0_off1 (grid0.coords t) (0 : Fin 2) + 1 * k.val = 4096 * (t.val % 3) + k.val; omega
  | ⟨1, _⟩ => show k0_off1 (grid0.coords t) (1 : Fin 2) + 1 * q.val = q.val; omega

theorem upperOf_apply (t : Fin cfg0.N) (xs : Vec Ideal S12288x512 .bf16) (k : Fin 2048) (q : Fin 512) :
    upperOf (grid0.coords t) xs (ix2 k q) = xs (ix2 (bandRow (rel t) (GraphConv.hi k)) q) := by
  show xs ((Rect.unit (s := S12288x512) (k0_off2 (grid0.coords t)) S2048x512.size (k0_off2_inb (grid0.coords t))).idx (ix2 k q)) = _
  congr 1
  funext a; apply Fin.ext
  obtain ⟨e0, e1⟩ := off2_eq t
  match a with
  | ⟨0, _⟩ => show k0_off2 (grid0.coords t) (0 : Fin 2) + 1 * k.val = 4096 * (t.val % 3) + (2048 + k.val); omega
  | ⟨1, _⟩ => show k0_off2 (grid0.coords t) (1 : Fin 2) + 1 * q.val = q.val; omega

end Cert.KernelIdeal.Hand

end
-- ==== Proof.IdealSplit.lean ====
/-
  The region's entry: the buffers behind the windows' arrays, each whole at the full share, make the proof data's arrays.
  The adjacency array is read through two windows, so its share is halved between them.
-/
import proofs.«173977_g25082609009178_cont_9to1_1719_7_alg».proof.Proof.IdealFrame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

open Idealize.SL.BI (bigSepL bigSep_eq_bigSepL_of_eq bigSep_congr)

theorem share0_0 (c : Dev nD) : (dats m 0 c).share 0 = fullShare := rfl
theorem share0_1 (c : Dev nD) : (dats m 0 c).share 1 = fullShare := rfl
theorem share0_2 (c : Dev nD) : (dats m 0 c).share 2 = fullShare.left := rfl
theorem share0_3 (c : Dev nD) : (dats m 0 c).share 3 = fullShare.right := rfl
theorem share0_4 (c : Dev nD) : (dats m 0 c).share 4 = fullShare := rfl
theorem share0_5 (c : Dev nD) : (dats m 0 c).share 5 = fullShare := rfl

/-- The proof data's arrays, each through its whole buffer. -/
theorem arrays_eq' (c : Dev nD) (G : (w : Fin cfg0.W) → Buf (Elt F) ((cfg0.win w).arr.view.loc (c.tc : Thread nD τ))) :
    (dats m 0 c).arrays G = bigSep Finset.univ fun w => (((c.tc : Thread nD τ).loc (Pipeline.arrRef spec0 w)) ↦{(dats m 0 c).share w} G w : sProp 𝕄) := by
  unfold Dat.arrays
  exact bigSep_congr fun w _ => by rw [(arr_whole0 w).set_eq_univ]

theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  classical
  have hL : ∀ Φ : Ref sig .tc → sProp 𝕄, bigSep (Finset.univ.image (Pipeline.arrRef spec0)) Φ
      = iprop(Φ main_arg0 ∗ Φ main_arg2 ∗ Φ main_arg1 ∗ Φ main_v0 ∗ Φ main_v1) :=
    fun Φ => bigSep_eq_bigSepL_of_eq [main_arg0, main_arg2, main_arg1, main_v0, main_v1] (by decide) (by decide) Φ
  rw [arrays_eq' m c, bigSep_W0]
  unfold Pipeline.arrBufs
  rw [hL]
  rw [share0_0, share0_1, share0_2, share0_3, share0_4, share0_5]
  rw [show (dats m 0 c).arrAt 0 0 = V m c main_arg0 from A_eq m c 0,
    show (dats m 0 c).arrAt 1 0 = V m c main_arg2 from A_eq m c 1,
    show (dats m 0 c).arrAt 2 0 = V m c main_arg1 from A_eq m c 2,
    show (dats m 0 c).arrAt 3 0 = V m c main_arg1 from A_eq m c 3,
    show (dats m 0 c).arrAt 4 0 = V m c main_v0 from A_eq m c 4,
    show (dats m 0 c).arrAt 5 0 = V m c main_v1 from A_eq m c 5]
  generalize V m c = Vc
  iintro ⟨H0, H2, H1, H4, H5⟩
  ihave H1' := (pointsTo_share (PosShare.mem_left_op_right fullShare)).1 $$ H1
  icases H1' with ⟨H1l, H1r⟩
  isplitl [H0]; · iexact H0
  isplitl [H2]; · iexact H2
  isplitl [H1l]; · iexact H1l
  isplitl [H1r]; · iexact H1r
  isplitl [H4]; · iexact H4
  iexact H5

end Cert.KernelIdeal.Hand

end
-- ==== Proof.IdealLaunch.lean ====
/-
  The launch of the graph-convolution kernel's region. The adjacency array is read through two windows (the lower and
  the upper half of its columns), so the region's entry splits its full share between them; the other arrays go to
  their one window whole. From the run: the arguments end unchanged, and the result array is what the write-backs leave.
-/
import proofs.«173977_g25082609009178_cont_9to1_1719_7_alg».proof.Proof.IdealSplit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Before the first point the invariant is the scoped rest: the scratch at anything. -/
theorem hin (c : Dev nD) :
    iprop((BI.emp : sProp 𝕄) ∗ Pipeline.scopedRest (Ix := Unit) (Name := ℕ) (U := UR sig nD τ) (Lvl := ℕ) (Val := Elt F) spec0 c) ⊢ (dats m 0 c).Φ 0 := by
  rw [show (dats m 0 c).Φ 0 = iprop(∃ d, owns (c : Thread nD τ) scM0 fullShare d) from rfl, scopedRest0_eq]
  simp only [scM0, owns_whole]
  iintro ⟨-, H⟩
  iexact H

/-- After the last point the stored supports are forgotten again. -/
theorem hout (c : Dev nD) :
    (dats m 0 c).Φ (Fin.last cfg0.N) ⊢ iprop((BI.emp : sProp 𝕄) ∗ Pipeline.scopedRest (Ix := Unit) (Name := ℕ) (U := UR sig nD τ) (Lvl := ℕ) (Val := Elt F) spec0 c) := by
  rw [show (dats m 0 c).Φ (Fin.last cfg0.N) = PhiS m c cfg0.N from rfl,
    PhiS_pos m c _ (by have : cfg0.N = 24 := N_0; omega), scopedRest0_eq]
  simp only [scM0, owns_whole]
  iintro H
  isplitr; · iempintro
  iexists _; iexact H

/-- The run of the whole program: every array of the pipeline ends at what the write-backs leave, every other unscoped
    buffer as the region found it. -/
theorem run_main : θ_run defs (onTc (τ := τ) (main (F := F))) ⟨m, fun _ => 0, ρ⟩ (Pipeline.FramePost cfgs (dats m) 0 (V m)) := by
  classical
  exact Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := hsplit m)
    (X := fun _ => BI.emp) (Y := fun _ => BI.emp)
    (Z := fun c => Pipeline.unscopedRest (Ix := Unit) (Name := ℕ) (U := UR sig nD τ) (Lvl := ℕ) spec0 c (V m c))
    (hX := fun c => by
      iintro H
      isplitr; · iempintro
      iexact H)
    (hin := hin m) (hout := hout m)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- The frame: the four arguments end as launched. The features, the weights and the adjacencies are staged inputs; the
    bias is read only through its reshaped copy and bypasses the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats m 0 c).arrAt_in 0 rfl _).trans ((A_eq m c 0).trans (V_main_arg0 m c))),
     ((h c).1 2).trans (((dats m 0 c).arrAt_in 2 rfl _).trans ((A_eq m c 2).trans (V_main_arg1 m c))),
     ((h c).1 1).trans (((dats m 0 c).arrAt_in 1 rfl _).trans ((A_eq m c 1).trans (V_main_arg2 m c))),
     ((h c).2 main_arg3 (Pipeline.mem_restRefs_of main_arg3 (by decide) (by decide))).trans (V_main_arg3 m c)⟩) (run_main m ρ)

/-- The same run with the result array named: what the eight write-backs of the accumulator block leave. -/
theorem run_result : θ_run defs (onTc (τ := τ) (main (F := F))) ⟨m, fun _ => 0, ρ⟩ (fun r => ∀ c : Dev nD,
      r.2.mem ((c.tc : Thread nD τ).loc main_v1) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c).1 5,
     ((h c).1 0).trans (((dats m 0 c).arrAt_in 0 rfl _).trans ((A_eq m c 0).trans (V_main_arg0 m c))),
     ((h c).1 2).trans (((dats m 0 c).arrAt_in 2 rfl _).trans ((A_eq m c 2).trans (V_main_arg1 m c))),
     ((h c).1 1).trans (((dats m 0 c).arrAt_in 1 rfl _).trans ((A_eq m c 1).trans (V_main_arg2 m c))),
     ((h c).2 main_arg3 (Pipeline.mem_restRefs_of main_arg3 (by decide) (by decide))).trans (V_main_arg3 m c)⟩) (run_main m ρ)

end Cert.KernelIdeal.Hand

end
-- ==== Proof.LibPlainDot.lean ====
/-
  A plain matrix product read at an index, for any extents.

  For the dimension numbers of an `[M, K]` by `[K, N]` product (contract the left operand's columns with the right
  operand's rows, no batch axis), both the kernel's matrix unit accumulating into zero and the host's `dot_general`,
  read at the extended reals at entry `(r, c)`, are the sum over `k` of `lhs (r, k) * rhs (k, c)`.
-/
import Idealize.ShloMosaic.Lib.ValueIdx
import Idealize.ShloMosaic.PureOps.Ideal.Laws

noncomputable section

namespace Cert.Sage

open Idealize.ShloMosaic Idealize.ShloMosaic.ValueIdx

/-- The left operand's row coordinate is the result's row. -/
theorem plain_lhs_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate is the result's column. -/
theorem plain_rhs_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at result entry `(r, c)` and the contraction index carrying `k` is `(r, k)`. -/
theorem plain_lhsIdx {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  refine Fin.ext ?_
  match a with
  | ⟨0, _⟩ => exact plain_lhs_row _ _
  | ⟨1, _⟩ => exact ((DotDims.plain M K N).lhsIdx_val_of_single rfl (ix2 r c) _).trans hk

/-- The right operand's index at result entry `(r, c)` and the contraction index carrying `k` is `(k, c)`. -/
theorem plain_rhsIdx {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  refine Fin.ext ?_
  match a with
  | ⟨0, _⟩ => exact ((DotDims.plain M K N).rhsIdx_val_of_single rfl (ix2 r c) _).trans hk
  | ⟨1, _⟩ => exact plain_rhs_col _ _

/-- The contraction sum of a plain product at entry `(r, c)`, re-indexed by the contracted coordinate. -/
theorem plain_contraction {M K N : ℕ} (lhs : (⟨2, ![M, K]⟩ : Shape).Idx → EReal) (rhs : (⟨2, ![K, N]⟩ : Shape).Idx → EReal)
    (r : Fin M) (c : Fin N) :
    (∑ q : (DotDims.plain M K N).contr.Idx,
        lhs ((DotDims.plain M K N).lhsIdx (ix2 r c) q) * rhs ((DotDims.plain M K N).rhsIdx (ix2 r c) q))
      = ∑ k : Fin K, lhs (ix2 r k) * rhs (ix2 k c) := by
  rw [← Equiv.sum_comp (contrEquiv1 (DotDims.plain M K N) K rfl rfl).symm]
  refine Finset.sum_congr rfl fun k _ => ?_
  rw [plain_lhsIdx, plain_rhsIdx]

/-- The matrix unit accumulating into the zero splat, at entry `(r, c)`. -/
theorem matmul_plain_zero_apply {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) :=
  (Ideal.matmul_constant_zero_apply (DotDims.plain M K N) prec lhs rhs (ix2 r c)).trans (plain_contraction lhs rhs r c)

/-- The host's `dot_general`, at entry `(r, c)`. -/
theorem dotGeneral_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  (Ideal.dotGeneral_apply (DotDims.plain M K N) prec sched lhs rhs (ix2 r c)).trans (plain_contraction lhs rhs r c)

end Cert.Sage

end
-- ==== Proof.LibDotLastAxes.lean ====
/-
  A matrix product that contracts the LAST axis of both operands, at the ideal values.

  For `A` of shape [M, K] and `B` of shape [N, K] the product into a zero accumulator has, at row `a` and column `b`,
  the value `∑ c, A (a, c) * B (b, c)`: both operands are read along their rows. With a row vector added to every row
  of the product (a bias of shape [1, N] cast to its own shape and broadcast down the rows) this is one unit of a dense
  layer, `(∑ c, A (a, c) * B (b, c)) + bias (0, b)`.
-/
import Idealize.ShloMosaic.PureOps.Ideal.Laws
import Idealize.ShloMosaic.Lib.ValueIdx
import Idealize.ShloMosaic.Lib.Pipeline.Value

noncomputable section

open scoped BigOperators

namespace Idealize.ShloMosaic.DotLastAxes

open Idealize.ShloMosaic Idealize.ShloMosaic.ValueIdx

variable {M K N : Nat}

/-- The product of an [M, K] by an [N, K] matrix over their last axes, into the zero splat, read at an index: the sum
    over the contracted coordinate of the products of the two rows' entries. -/
theorem matmul_zero_apply {φ₁ φ₂ : FTy}
    (w : DotDims.WF (⟨2, ![M, K]⟩ : Shape) (⟨2, ![N, K]⟩ : Shape) (⟨2, ![M, N]⟩ : Shape) [1] [1] [0] [0] [] [])
    (prec : Option ContractPrecision) (A : FVec Ideal ⟨2, ![M, K]⟩ φ₁) (B : FVec Ideal ⟨2, ![N, K]⟩ φ₂)
    (a : Fin M) (b : Fin N) :
    matmul (⟨[1], [1], [0], [0], [], [], w⟩ : DotDims _ _ _) prec A B (constant (F := Ideal) ⟨2, ![M, N]⟩ .f32 0x00000000#32) (ix2 a b)
      = ∑ c : Fin K, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims (⟨2, ![M, K]⟩ : Shape) (⟨2, ![N, K]⟩ : Shape) (⟨2, ![M, N]⟩ : Shape)) K rfl rfl).symm]
  refine Finset.sum_congr rfl fun c _ => ?_
  have c2 := contrEquiv1_symm_val (⟨[1], [1], [0], [0], [], [], w⟩ : DotDims (⟨2, ![M, K]⟩ : Shape) (⟨2, ![N, K]⟩ : Shape) (⟨2, ![M, N]⟩ : Shape)) K rfl rfl c
  have l2 : (⟨[1], [1], [0], [0], [], [], w⟩ : DotDims (⟨2, ![M, K]⟩ : Shape) (⟨2, ![N, K]⟩ : Shape) (⟨2, ![M, N]⟩ : Shape)).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims (⟨2, ![M, K]⟩ : Shape) (⟨2, ![N, K]⟩ : Shape) (⟨2, ![M, N]⟩ : Shape)).rhsIdx (ix2 a b)
      ((contrEquiv1 _ K rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- A [1, N] row cast to its own shape and broadcast down M rows reads, at row `a` and column `b`, the row's entry `b`. -/
theorem rowBroadcast_apply {α : Type} (hc : (⟨2, ![1, N]⟩ : Shape).ShapeCasts ⟨2, ![1, N]⟩)
    (hb : (⟨2, ![1, N]⟩ : Shape).Broadcasts ⟨2, ![M, N]⟩) (x : (⟨2, ![1, N]⟩ : Shape).Idx → α) (a : Fin M) (b : Fin N) :
    broadcastTo ⟨2, ![M, N]⟩ (shapeCast ⟨2, ![1, N]⟩ x hc) hb (ix2 a b) = x (ix2 0 b) := by
  rw [shapeCast_self]
  refine broadcastTo_apply x hb (ix2 a b) (ix2 0 b) fun ax => ?_
  match ax with
  | ⟨0, _⟩ => exact (if_pos rfl).symm
  | ⟨1, _⟩ =>
    show (b : ℕ) = if N = 1 then 0 else (b : ℕ)
    split
    · have := b.isLt; omega
    · rfl

end Idealize.ShloMosaic.DotLastAxes

end
-- ==== Proof.IdealPay.lean ====
/-
  The kernel body's stored values, read entry by entry over the extended reals.

  A support block is the features times one relation's weights, each weight first multiplied by the named constant
  1/3: entry `(p, q)` is `∑ f, X (p, f) * (W (0, f, q) * (1/3))`. An accumulator block is the lower 2048 columns of
  an adjacency tile against the first 2048 support rows plus the upper 2048 columns against the next 2048 rows; on the
  first step of a row of the grid the bias row is added to it, on a later step the block already stored is.
  Roundings to the narrower float format are the identity here.
-/
import proofs.«173977_g25082609009178_cont_9to1_1719_7_alg».proof.Proof.Gen.KernelIdeal.Skeleton
import proofs.«173977_g25082609009178_cont_9to1_1719_7_alg».proof.Proof.LibPlainDot
import proofs.«173977_g25082609009178_cont_9to1_1719_7_alg».proof.Proof.LibDotLastAxes
import Idealize.ShloMosaic.Lib.Pipeline.Value
import Idealize.ShloMosaic.Lib.ValueLayout
import Idealize.ShloMosaic.PureOps.IdealRules

noncomputable section

namespace Cert.KernelIdeal.Pay

open Idealize.ShloMosaic Idealize.ShloMosaic.ValueIdx
open Cert.KernelIdeal Cert.KernelIdeal.Gen

/-- The named constant denotes the rational 1/3. -/
theorem inv3 : Named.named (F := Ideal) Cert.KernelIdeal.κ "inv_3" (φ := .f32) 0x3EAAAAAB#32 = ((1 / 3 : ℝ) : EReal) :=
  IdealRules.named_const.ideal_named_scalar _ _ _ _ rfl

/-- The first support block at `(p, q)`: row `p` of the features against column `q` of the loaded weight slice,
    each weight multiplied by 1/3. -/
theorem pay2_apply (v27 : Vec Ideal S4096x512 .f32) (v29 : Vec Ideal S1x512x512 .f32) (p : Fin 4096) (q : Fin 512) :
    k0_pay2 (F := Ideal) v27 v29 (ix2 p q)
      = ∑ f : Fin 512, v27 (ix2 p f) * (v29 (ix3 0 f q) * ((1 / 3 : ℝ) : EReal)) := by
  unfold k0_pay2 k0_pay1
  refine (congrFun (shapeCast_self _ shapeCasts_S4096x512_S4096x512) (ix2 p q)).trans ?_
  show FloatOps.matmul (F := Ideal) dot_S4096x512_S512x512_S4096x512_1_0_0_1_n_n none _ _ _ (ix2 p q) = _
  refine (Cert.Sage.matmul_plain_zero_apply (M := 4096) (K := 512) (N := 512) (φ₁ := .bf16) (φ₂ := .bf16) none _ _ p q).trans ?_
  refine Finset.sum_congr rfl fun f _ => ?_
  refine congrArg (v27 (ix2 p f) * ·) ?_
  show shapeCast S512x512 v29 shapeCasts_S1x512x512_S512x512 (ix2 f q)
      * Named.named (F := Ideal) κ "inv_3" (φ := .f32) 0x3EAAAAAB#32 = _
  rw [inv3, shapeCast_1ab_ab_apply]

/-- The second support block at `(p, q)`: row `p` of the features against column `q` of the loaded weight slice,
    each weight multiplied by 1/3. -/
theorem pay3_apply (v27 : Vec Ideal S4096x512 .f32) (v39 : Vec Ideal S1x512x512 .f32) (p : Fin 4096) (q : Fin 512) :
    k0_pay3 (F := Ideal) v27 v39 (ix2 p q)
      = ∑ f : Fin 512, v27 (ix2 p f) * (v39 (ix3 0 f q) * ((1 / 3 : ℝ) : EReal)) := by
  unfold k0_pay3 k0_pay1
  refine (congrFun (shapeCast_self _ shapeCasts_S4096x512_S4096x512) (ix2 p q)).trans ?_
  show FloatOps.matmul (F := Ideal) dot_S4096x512_S512x512_S4096x512_1_0_0_1_n_n none _ _ _ (ix2 p q) = _
  refine (Cert.Sage.matmul_plain_zero_apply (M := 4096) (K := 512) (N := 512) (φ₁ := .bf16) (φ₂ := .bf16) none _ _ p q).trans ?_
  refine Finset.sum_congr rfl fun f _ => ?_
  refine congrArg (v27 (ix2 p f) * ·) ?_
  show shapeCast S512x512 v39 shapeCasts_S1x512x512_S512x512 (ix2 f q)
      * Named.named (F := Ideal) κ "inv_3" (φ := .f32) 0x3EAAAAAB#32 = _
  rw [inv3, shapeCast_1ab_ab_apply]

/-- The third support block at `(p, q)`: row `p` of the features against column `q` of the loaded weight slice,
    each weight multiplied by 1/3. -/
theorem pay4_apply (v27 : Vec Ideal S4096x512 .f32) (v49 : Vec Ideal S1x512x512 .f32) (p : Fin 4096) (q : Fin 512) :
    k0_pay4 (F := Ideal) v27 v49 (ix2 p q)
      = ∑ f : Fin 512, v27 (ix2 p f) * (v49 (ix3 0 f q) * ((1 / 3 : ℝ) : EReal)) := by
  unfold k0_pay4 k0_pay1
  refine (congrFun (shapeCast_self _ shapeCasts_S4096x512_S4096x512) (ix2 p q)).trans ?_
  show FloatOps.matmul (F := Ideal) dot_S4096x512_S512x512_S4096x512_1_0_0_1_n_n none _ _ _ (ix2 p q) = _
  refine (Cert.Sage.matmul_plain_zero_apply (M := 4096) (K := 512) (N := 512) (φ₁ := .bf16) (φ₂ := .bf16) none _ _ p q).trans ?_
  refine Finset.sum_congr rfl fun f _ => ?_
  refine congrArg (v27 (ix2 p f) * ·) ?_
  show shapeCast S512x512 v49 shapeCasts_S1x512x512_S512x512 (ix2 f q)
      * Named.named (F := Ideal) κ "inv_3" (φ := .f32) 0x3EAAAAAB#32 = _
  rw [inv3, shapeCast_1ab_ab_apply]

/-- The accumulator's new term at `(p, q)`: the lower-half adjacency tile against the first 2048 support rows plus the
    upper-half tile against the next 2048. -/
theorem pay5_apply (v5 v8 : Vec Ideal S1x512x2048 .f32) (v13 v17 : Vec Ideal S2048x512 .bf16) (p q : Fin 512) :
    k0_pay5 (F := Ideal) v5 v8 v13 v17 (ix2 p q)
      = (∑ k : Fin 2048, v5 (ix3 0 p k) * v13 (ix2 k q)) + ∑ k : Fin 2048, v8 (ix3 0 p k) * v17 (ix2 k q) := by
  unfold k0_pay5
  show FloatOps.matmul (F := Ideal) dot_S512x2048_S2048x512_S512x512_1_0_0_1_n_n none _ _ _ (ix2 p q)
      + FloatOps.matmul (F := Ideal) dot_S512x2048_S2048x512_S512x512_1_0_0_1_n_n none _ _ _ (ix2 p q) = _
  refine congrArg₂ (· + ·) ?_ ?_
  · refine (Cert.Sage.matmul_plain_zero_apply (M := 512) (K := 2048) (N := 512) (φ₁ := .bf16) (φ₂ := .bf16) none _ _ p q).trans ?_
    refine Finset.sum_congr rfl fun k _ => ?_
    refine congrArg (· * v13 (ix2 k q)) ?_
    show shapeCast S512x2048 v5 shapeCasts_S1x512x2048_S512x2048 (ix2 p k) = _
    exact shapeCast_1ab_ab_apply v5 shapeCasts_S1x512x2048_S512x2048 p k
  · refine (Cert.Sage.matmul_plain_zero_apply (M := 512) (K := 2048) (N := 512) (φ₁ := .bf16) (φ₂ := .bf16) none _ _ p q).trans ?_
    refine Finset.sum_congr rfl fun k _ => ?_
    refine congrArg (· * v17 (ix2 k q)) ?_
    show shapeCast S512x2048 v8 shapeCasts_S1x512x2048_S512x2048 (ix2 p k) = _
    exact shapeCast_1ab_ab_apply v8 shapeCasts_S1x512x2048_S512x2048 p k

/-- On the first step of a grid row the stored block is the new term plus the bias row. -/
theorem pay6_apply (v5 v8 : Vec Ideal S1x512x2048 .f32) (v13 v17 : Vec Ideal S2048x512 .bf16) (v27 : Vec Ideal S1x512 .f32)
    (p q : Fin 512) :
    k0_pay6 (F := Ideal) v5 v8 v13 v17 v27 (ix2 p q) = k0_pay5 (F := Ideal) v5 v8 v13 v17 (ix2 p q) + v27 (ix2 0 q) := by
  unfold k0_pay6
  show k0_pay5 (F := Ideal) v5 v8 v13 v17 (ix2 p q)
      + broadcastTo S512x512 (shapeCast S1x512 v27 shapeCasts_S1x512_S1x512) broadcasts_S1x512_S512x512 (ix2 p q) = _
  refine congrArg (k0_pay5 (F := Ideal) v5 v8 v13 v17 (ix2 p q) + ·) ?_
  exact DotLastAxes.rowBroadcast_apply shapeCasts_S1x512_S1x512 broadcasts_S1x512_S512x512 v27 p q

/-- On a later step the stored block is the block already there plus the new term. -/
theorem pay7_apply (v5 v8 : Vec Ideal S1x512x2048 .f32) (v13 v17 : Vec Ideal S2048x512 .bf16) (v27 : Vec Ideal S512x512 .f32)
    (p q : Fin 512) :
    k0_pay7 (F := Ideal) v5 v8 v13 v17 v27 (ix2 p q) = v27 (ix2 p q) + k0_pay5 (F := Ideal) v5 v8 v13 v17 (ix2 p q) := by
  unfold k0_pay7
  show shapeCast S512x512 v27 shapeCasts_S512x512_S512x512 (ix2 p q) + k0_pay5 (F := Ideal) v5 v8 v13 v17 (ix2 p q) = _
  exact congrArg (· + k0_pay5 (F := Ideal) v5 v8 v13 v17 (ix2 p q))
    (congrFun (shapeCast_self v27 shapeCasts_S512x512_S512x512) (ix2 p q))

end Cert.KernelIdeal.Pay

end
-- ==== Proof.IdealValC.lean ====
/-
  The result array of the graph-convolution kernel at the ideal instance. Band r of the scratch is relation r's scaled
  support; each point's two half-contractions are that relation's aggregation of its 512 rows; the accumulator block runs
  through (agg 0 + bias), + agg 1, + agg 2 and is written back after relation 2; the eight row blocks tile the array.
-/
import proofs.«173977_g25082609009178_cont_9to1_1719_7_alg».proof.Proof.IdealValB
import proofs.«173977_g25082609009178_cont_9to1_1719_7_alg».proof.Proof.IdealLaunch
import proofs.«173977_g25082609009178_cont_9to1_1719_7_alg».proof.Proof.IdealPay
import proofs.«173977_g25082609009178_cont_9to1_1719_7_alg».proof.Proof.Spec

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

open Cert.GraphConv (support agg kernelForm lo hi)
open Cert.KernelIdeal.Pay

/-- The four arguments as launched, as functions of their indices. -/
abbrev Xa (c : Dev nD) : GraphConv.SX.Idx → EReal := m ((c : Thread nD τ).loc main_arg0)
abbrev Aa (c : Dev nD) : GraphConv.SA.Idx → EReal := m ((c : Thread nD τ).loc main_arg1)
abbrev Wa (c : Dev nD) : GraphConv.SW.Idx → EReal := m ((c : Thread nD τ).loc main_arg2)
abbrev Ba (c : Dev nD) : GraphConv.SB.Idx → EReal := m ((c : Thread nD τ).loc main_arg3)

/-- A row below a band's first row is not in the band. -/
theorem not_mem_band {o : ℕ} {inb} (R : Fin 12288) (q : Fin 512) (h : R.val < o) :
    ix2 R q ∉ (Rect.unit (s := S12288x512) ![o, 0] S4096x512.size inb).set := fun hm => by
  have h0 := (Rect.mem_set_unit.mp hm) 0
  have h1 : o ≤ R.val := h0.1
  omega

/-- Off a write's rectangle, the earlier writes decide. -/
theorem canon_skip {S : Shape} {e : EltTy} (r : Rect S) (w : r.shape.Idx → Elt Ideal e) (L : List (View.Piece (Elt Ideal) S e)) {y : S.Idx}
    (h : y ∉ r.set) : View.canon (⟨r, w⟩ :: L) y = View.canon L y :=
  View.canon_cons_of_not_mem ⟨r, w⟩ L h

/-- Band r of the scratch, row k, column q: the features' row k against column q of relation r's weights, each weight
    scaled by a third. -/
theorem supp_apply (x0 : Vec Ideal S4096x512 .f32) (x1 : Vec Ideal S3x512x512 .f32) (r : Fin 3) (k : Fin 4096) (q : Fin 512) :
    supp (F := Ideal) x0 x1 (ix2 (bandRow r k) q) = ∑ f : Fin 512, x0 (ix2 k f) * (x1 (ix3 r f q) * ((1 / 3 : ℝ) : EReal)) :=
  match r with
  | ⟨2, _⟩ =>
    have e : ix2 (bandRow (⟨2, by decide⟩ : Fin 3) k) q = (Rect.unit (s := S12288x512) ![8192, 0] S4096x512.size inb_S12288x512_S4096x512_8192_0).emb (ix2 k q) := by
      funext a; apply Fin.ext
      match a with
      | ⟨0, _⟩ => show 4096 * 2 + k.val = 8192 + 1 * k.val; omega
      | ⟨1, _⟩ => show q.val = 0 + 1 * q.val; omega
    have hl : ∀ f : Fin 512, View.ld x1 (Rect.unit (s := S3x512x512) ![2, 0, 0] S1x512x512.size inb_S3x512x512_S1x512x512_2_0_0) (ix3 0 f q) = x1 (ix3 (⟨2, by decide⟩ : Fin 3) f q) := fun f => by
      show x1 ((Rect.unit (s := S3x512x512) ![2, 0, 0] S1x512x512.size inb_S3x512x512_S1x512x512_2_0_0).idx (ix3 0 f q)) = _
      congr 1; funext a; apply Fin.ext
      match a with
      | ⟨0, _⟩ => show 2 + 1 * 0 = 2; rfl
      | ⟨1, _⟩ => show 0 + 1 * f.val = f.val; omega
      | ⟨2, _⟩ => show 0 + 1 * q.val = q.val; omega
    by
      unfold supp bands

      rw [e, View.canon_cons_emb, pay4_apply]
      exact Finset.sum_congr rfl fun f _ => by rw [hl f]
  | ⟨1, _⟩ =>
    have e : ix2 (bandRow (⟨1, by decide⟩ : Fin 3) k) q = (Rect.unit (s := S12288x512) ![4096, 0] S4096x512.size inb_S12288x512_S4096x512_4096_0).emb (ix2 k q) := by
      funext a; apply Fin.ext
      match a with
      | ⟨0, _⟩ => show 4096 * 1 + k.val = 4096 + 1 * k.val; omega
      | ⟨1, _⟩ => show q.val = 0 + 1 * q.val; omega
    have hl : ∀ f : Fin 512, View.ld x1 (Rect.unit (s := S3x512x512) ![1, 0, 0] S1x512x512.size inb_S3x512x512_S1x512x512_1_0_0) (ix3 0 f q) = x1 (ix3 (⟨1, by decide⟩ : Fin 3) f q) := fun f => by
      show x1 ((Rect.unit (s := S3x512x512) ![1, 0, 0] S1x512x512.size inb_S3x512x512_S1x512x512_1_0_0).idx (ix3 0 f q)) = _
      congr 1; funext a; apply Fin.ext
      match a with
      | ⟨0, _⟩ => show 1 + 1 * 0 = 1; rfl
      | ⟨1, _⟩ => show 0 + 1 * f.val = f.val; omega
      | ⟨2, _⟩ => show 0 + 1 * q.val = q.val; omega
    by
      unfold supp bands
      have hnm8192 : ix2 (bandRow (⟨1, by decide⟩ : Fin 3) k) q ∉ (Rect.unit (s := S12288x512) ![8192, 0] S4096x512.size inb_S12288x512_S4096x512_8192_0).set :=
        not_mem_band (bandRow (⟨1, by decide⟩ : Fin 3) k) q (by show 4096 * 1 + k.val < 8192; omega)
      rw [canon_skip _ _ _ hnm8192]
      rw [e, View.canon_cons_emb, pay3_apply]
      exact Finset.sum_congr rfl fun f _ => by rw [hl f]
  | ⟨0, _⟩ =>
    have e : ix2 (bandRow (⟨0, by decide⟩ : Fin 3) k) q = (Rect.unit (s := S12288x512) ![0, 0] S4096x512.size inb_S12288x512_S4096x512_0_0).emb (ix2 k q) := by
      funext a; apply Fin.ext
      match a with
      | ⟨0, _⟩ => show 4096 * 0 + k.val = 0 + 1 * k.val; omega
      | ⟨1, _⟩ => show q.val = 0 + 1 * q.val; omega
    have hl : ∀ f : Fin 512, View.ld x1 (Rect.unit (s := S3x512x512) ![0, 0, 0] S1x512x512.size inb_S3x512x512_S1x512x512_0_0_0) (ix3 0 f q) = x1 (ix3 (⟨0, by decide⟩ : Fin 3) f q) := fun f => by
      show x1 ((Rect.unit (s := S3x512x512) ![0, 0, 0] S1x512x512.size inb_S3x512x512_S1x512x512_0_0_0).idx (ix3 0 f q)) = _
      congr 1; funext a; apply Fin.ext
      match a with
      | ⟨0, _⟩ => show 0 + 1 * 0 = 0; rfl
      | ⟨1, _⟩ => show 0 + 1 * f.val = f.val; omega
      | ⟨2, _⟩ => show 0 + 1 * q.val = q.val; omega
    by
      unfold supp bands
      have hnm8192 : ix2 (bandRow (⟨0, by decide⟩ : Fin 3) k) q ∉ (Rect.unit (s := S12288x512) ![8192, 0] S4096x512.size inb_S12288x512_S4096x512_8192_0).set :=
        not_mem_band (bandRow (⟨0, by decide⟩ : Fin 3) k) q (by show 4096 * 0 + k.val < 8192; omega)
      rw [canon_skip _ _ _ hnm8192]
      have hnm4096 : ix2 (bandRow (⟨0, by decide⟩ : Fin 3) k) q ∉ (Rect.unit (s := S12288x512) ![4096, 0] S4096x512.size inb_S12288x512_S4096x512_4096_0).set :=
        not_mem_band (bandRow (⟨0, by decide⟩ : Fin 3) k) q (by show 4096 * 0 + k.val < 4096; omega)
      rw [canon_skip _ _ _ hnm4096]
      rw [e, View.canon_cons_emb, pay2_apply]
      exact Finset.sum_congr rfl fun f _ => by rw [hl f]

/-- The scratch holds the supports of the whole feature and weight arrays. -/
theorem scr_eq (c : Dev nD) : scr m c = supp (iblk m c 0 t0) (iblk m c 1 t0) := by
  unfold scr; exact sout_A ..

/-- A row of the scratch is a row of relation r's support. -/
theorem scr_apply (c : Dev nD) (r : Fin 3) (k : Fin 4096) (q : Fin 512) :
    supp (F := Ideal) (iblk m c 0 t0) (iblk m c 1 t0) (ix2 (bandRow r k) q) = support (Xa m c) (Wa m c) r k q := by
  rw [supp_apply]
  unfold support
  refine Finset.sum_congr rfl fun f _ => ?_
  rw [iblk0_apply, iblk1_apply, V_main_arg0, V_main_arg2]

/-- The two half-contractions at point t are its relation's aggregation of the point's 512 rows. -/
theorem pay5_eq_agg (c : Dev nD) (t : Fin cfg0.N) (p q : Fin 512) :
    k0_pay5 (F := Ideal) (iblk m c 2 t) (iblk m c 3 t) (lowerOf (grid0.coords t) (supp (iblk m c 0 t0) (iblk m c 1 t0)))
        (upperOf (grid0.coords t) (supp (iblk m c 0 t0) (iblk m c 1 t0))) (ix2 p q)
      = agg (Xa m c) (Aa m c) (Wa m c) (rel t) (row t p) q := by
  rw [pay5_apply]
  unfold agg
  congr 1
  · refine Finset.sum_congr rfl fun k _ => ?_
    rw [iblk2_apply, lowerOf_apply, scr_apply, V_main_arg1]
  · refine Finset.sum_congr rfl fun k _ => ?_
    rw [iblk3_apply, upperOf_apply, scr_apply, V_main_arg1]

/-- At relation 0 the accumulator is set: the aggregation plus the bias. -/
theorem outs_rel0 (c : Dev nD) (t : Fin cfg0.N) (h1 : t.val % 3 = 0) (p q : Fin 512) :
    outsAt0 m c t.val t.isLt (ix2 p q) = agg (Xa m c) (Aa m c) (Wa m c) (rel t) (row t p) q + Ba m c (ix1 q) := by
  by_cases hz : t.val = 0
  · obtain rfl : t = t0 := Fin.ext hz
    rw [outsAt0_A m c t0 rfl, out_A, pay6_apply, pay5_eq_agg, iblk4_apply, V_main_v0_apply]
  · rw [outsAt0_B m c t hz h1, out_B, scr_eq, pay6_apply, pay5_eq_agg, iblk4_apply, V_main_v0_apply]

/-- At relations 1 and 2 the aggregation is added to what the point before left. -/
theorem outs_step (c : Dev nD) (t : Fin cfg0.N) (h1 : ¬t.val % 3 = 0) (p q : Fin 512) :
    outsAt0 m c t.val t.isLt (ix2 p q)
      = outsAt0 m c (t.val - 1) (Nat.lt_of_le_of_lt (Nat.sub_le _ _) t.isLt) (ix2 p q) + agg (Xa m c) (Aa m c) (Wa m c) (rel t) (row t p) q := by
  have hz : ¬t.val = 0 := fun h => h1 (by rw [h])
  rw [outsAt0_C m c t hz h1, out_C, scr_eq, pay7_apply, pay5_eq_agg]

/-- The result array, of the arguments as launched. -/
abbrev G (c : Dev nD) : Buf (Elt Ideal) ((cfg0.win 5).arr.view.loc (c.tc : Thread nD τ)) :=
  kernelForm (Xa m c) (Aa m c) (Wa m c) (Ba m c)

/-- After relation 2 the accumulator block holds the result's rows of its row block. -/
theorem outs_flush (c : Dev nD) (t : Fin cfg0.N) (h2 : t.val % 3 = 2) (p q : Fin 512) :
    outsAt0 m c t.val t.isLt (ix2 p q) = kernelForm (Xa m c) (Aa m c) (Wa m c) (Ba m c) (ix2 (row t p) q) := by
  have hN := lt24 t
  have hlt1 : t.val - 1 < cfg0.N := Nat.lt_of_le_of_lt (Nat.sub_le _ _) t.isLt
  have s2 := outs_step m c t (by omega) p q
  have s1 := outs_step m c ⟨t.val - 1, hlt1⟩ (by show ¬(t.val - 1) % 3 = 0; omega) p q
  have s0 := outs_rel0 m c ⟨t.val - 1 - 1, Nat.lt_of_le_of_lt (Nat.sub_le _ _) hlt1⟩ (by show (t.val - 1 - 1) % 3 = 0; omega) p q
  have r2 : rel t = (2 : Fin 3) := Fin.ext h2
  have r1 : rel ⟨t.val - 1, hlt1⟩ = (1 : Fin 3) := Fin.ext (by show (t.val - 1) % 3 = 1; omega)
  have r0 : rel ⟨t.val - 1 - 1, Nat.lt_of_le_of_lt (Nat.sub_le _ _) hlt1⟩ = (0 : Fin 3) := Fin.ext (by show (t.val - 1 - 1) % 3 = 0; omega)
  have w1 : row ⟨t.val - 1, hlt1⟩ p = row t p := Fin.ext (by show 512 * ((t.val - 1) / 3) + p.val = 512 * (t.val / 3) + p.val; omega)
  have w0 : row ⟨t.val - 1 - 1, Nat.lt_of_le_of_lt (Nat.sub_le _ _) hlt1⟩ p = row t p :=
    Fin.ext (by show 512 * ((t.val - 1 - 1) / 3) + p.val = 512 * (t.val / 3) + p.val; omega)
  rw [r2] at s2
  rw [r1, w1] at s1
  rw [r0, w0] at s0
  rw [s2, s1, s0]
  rfl

/-- What a writing-back point writes is its block of the result. -/
theorem flushed_eq (c : Dev nD) (t : Fin cfg0.N) (hf : (cfg0.win 5).flush t = true) :
    (dats m 0 c).flushed 5 t = ((cfg0.win 5).blk t).view.read (Elt Ideal) (G m c) := by
  have h2 : t.val % 3 = 2 := (flush0_5 t).mp hf
  show (cfg0.win 5).cut (grid0.coords t) ((dats m 0 c).after 5 t) = _
  rw [after0_5]
  funext y
  obtain ⟨p, q, rfl⟩ : ∃ (p q : Fin 512), y = ix2 p q := ⟨y 0, y 1, eq_ix2 y⟩
  show outsAt0 m c t.val t.isLt (ix2 p q) = G m c (((cfg0.win 5).blk t).view.emb (ix2 p q))
  rw [outs_flush m c t h2 p q]
  show kernelForm (Xa m c) (Aa m c) (Wa m c) (Ba m c) (ix2 (row t p) q) = kernelForm (Xa m c) (Aa m c) (Wa m c) (Ba m c) (((cfg0.win 5).blk t).view.emb (ix2 p q))
  congr 1
  funext a; apply Fin.ext
  obtain ⟨e0, e1⟩ := idx0_5 t
  match a with
  | ⟨0, _⟩ => show 512 * (t.val / 3) + p.val = win0_5.index t (0 : Fin 2) * 512 + 1 * p.val; omega
  | ⟨1, _⟩ => show q.val = win0_5.index t (1 : Fin 2) * 512 + 1 * q.val; omega

/-- An index of the result array is in point t's block iff each coordinate is in the block's range. -/
theorem mem_blk5 (t : Fin cfg0.N) (i : S4096x512.Idx) :
    i ∈ ((cfg0.win 5).blk t).view.set ↔ ∀ a : Fin 2, win0_5.index t a * S512x512.size a ≤ (i a).val ∧ (i a).val < win0_5.index t a * S512x512.size a + S512x512.size a := by
  show i ∈ ((View.whole main_v1).slice (win0_5.rect t)).set ↔ _
  rw [View.set_slice_whole, Rect.mem_set_unit]
  exact Iff.rfl

/-- The eight written-back row blocks tile the array: it ends holding the result. -/
theorem final5 (c : Dev nD) : (dats m 0 c).arrAt 5 cfg0.N = G m c :=
  (dats m 0 c).arrAt_eq_of_cover 5 (G m c) (fun t hf => flushed_eq m c t hf) fun i => by
    have hi0 : ((i : S4096x512.Idx) 0).val < 4096 := ((i : S4096x512.Idx) 0).isLt
    have hi1 : ((i : S4096x512.Idx) 1).val < 512 := ((i : S4096x512.Idx) 1).isLt
    have hN : cfg0.N = 24 := N_0
    have hN' : grid0.N = 24 := N_0
    refine ⟨⟨3 * (((i : S4096x512.Idx) 0).val / 512) + 2, by omega⟩, (flush0_5 _).mpr (by show (3 * (((i : S4096x512.Idx) 0).val / 512) + 2) % 3 = 2; omega), ?_⟩
    rw [mem_blk5]
    obtain ⟨e0, e1⟩ := idx0_5 ⟨3 * (((i : S4096x512.Idx) 0).val / 512) + 2, by omega⟩
    have e0' : win0_5.index ⟨3 * (((i : S4096x512.Idx) 0).val / 512) + 2, by omega⟩ (0 : Fin 2) = (3 * (((i : S4096x512.Idx) 0).val / 512) + 2) / 3 := e0
    intro a
    match a with
    | ⟨0, _⟩ =>
      show win0_5.index _ (0 : Fin 2) * 512 ≤ ((i : S4096x512.Idx) 0).val ∧ ((i : S4096x512.Idx) 0).val < win0_5.index _ (0 : Fin 2) * 512 + 512
      omega
    | ⟨1, _⟩ =>
      show win0_5.index _ (1 : Fin 2) * 512 ≤ ((i : S4096x512.Idx) 1).val ∧ ((i : S4096x512.Idx) 1).val < win0_5.index _ (1 : Fin 2) * 512 + 512
      omega

/-- The run, read: the result array holds the result, the arguments are unchanged. -/
theorem run_value : θ_run defs (onTc (τ := τ) (main (F := Ideal))) ⟨m, fun _ => 0, ρ⟩ (fun r => ∀ c : Dev nD,
      r.2.mem ((c.tc : Thread nD τ).loc main_v1) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (final5 m c), (h c).2⟩) (run_result m ρ)

end Cert.KernelIdeal.Hand

end
-- ==== Proof.Finite.lean ====
/-
  Finite inputs are real numbers.

  The precondition is the conjunction, over the four argument arrays, of "every entry has absolute value below
  +∞". Over the extended reals an entry with |x| < +∞ is neither +∞ nor −∞, so it is (the image of) a real number.
-/
import proofs.«173977_g25082609009178_cont_9to1_1719_7_alg».proof.Pre_finite_inputs
import Idealize.ShloMosaic.Lib.ReduceAll
import Idealize.ShloMosaic.Lib.ValueIdx
import Idealize.ShloMosaic.PureOps.Ideal.Laws

noncomputable section

namespace Cert.GraphConv

open Idealize.ShloMosaic Idealize.ShloMosaic.ValueIdx

/-- The scalar shape has one index. -/
instance scalarIdx_subsingleton : Subsingleton Cert.Pre_finite_inputs.S_.Idx := ⟨fun a b => funext fun d => d.elim0⟩

/-- The word of +∞ denotes the top extended real. -/
theorem ofBits_inf : Ideal.ofBits .f32 0x7F800000#32 = (⊤ : EReal) := by
  simp [Ideal.ofBits, Ideal.ieee]

/-- An extended real whose absolute value compares below +∞ is a real number. -/
theorem real_of_abs_lt_inf (x : EReal)
    (h : FloatOps.cmpf (F := Ideal) (φ := .f32) .olt (FloatOps.hostAbsf (F := Ideal) (φ := .f32) x)
        (FloatOps.ofBits (F := Ideal) .f32 0x7F800000#32) = 1#1) :
    ∃ r : ℝ, x = (r : EReal) := by
  rw [Ideal.cmpf_def, Ideal.ofBits_def, ofBits_inf, Ideal.hostAbsf_def, Ideal.absf_def] at h
  induction x using EReal.rec with
  | bot => simp [Ideal.cmp] at h
  | coe r => exact ⟨r, rfl⟩
  | top => simp [Ideal.cmp] at h

/-- One array's test "all |x| < +∞" came out true: every entry of the array is a real number. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
        (cmpf .olt (Host.absf x)
          (broadcastInDim s ![] hb (constant (F := Ideal) Cert.Pre_finite_inputs.S_ .f32 0x7F800000#32)))
        (constantI Cert.Pre_finite_inputs.S_ 1 1#1) hr hu ix0 = 1#1) (i : s.Idx) :
    ∃ r : ℝ, x i = (r : EReal) :=
  real_of_abs_lt_inf (x i) (Host.reduce_andi_all _ _ hr hu ix0 e i)

/-- Under the precondition every entry of each of the four argument arrays is a real number. -/
theorem entries_real [Cert.Pre_finite_inputs.Facts]
    (x0 : FVec Ideal Cert.Pre_finite_inputs.S4096x512 .f32) (x1 : FVec Ideal Cert.Pre_finite_inputs.S3x4096x4096 .f32)
    (x2 : FVec Ideal Cert.Pre_finite_inputs.S3x512x512 .f32) (x3 : FVec Ideal Cert.Pre_finite_inputs.S512 .f32)
    (h : Cert.Pre_finite_inputs.fn (F := Ideal) x0 x1 x2 x3 = fun _ => 1#1) :
    (∀ i, ∃ r : ℝ, x0 i = (r : EReal)) ∧ (∀ i, ∃ r : ℝ, x1 i = (r : EReal))
      ∧ (∀ i, ∃ r : ℝ, x2 i = (r : EReal)) ∧ (∀ i, ∃ r : ℝ, x3 i = (r : EReal)) := by
  have h0 := congrFun h ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨real_of_all x0 _ _ _ h0', real_of_all x1 _ _ _ h1, real_of_all x2 _ _ _ h2, real_of_all x3 _ _ _ h3⟩

end Cert.GraphConv

end
-- ==== Proof.RefValue.lean ====
/-
  The reference's result as one function of the four argument arrays.

  Relation `r`'s support is `X · W r` and its aggregation `A r · (X · W r)`; the three aggregations are laid side by
  side on a third axis, every entry is divided by the constant 3.0, the third axis is summed from the zero constant,
  and the bias row is added to every row. Read at `(i, j)` this is
  `(0 + ∑ r, (∑ c, A (r, i, c) * ∑ f, X (c, f) * W (r, f, j)) / 3.0) + b j`.
-/
import proofs.«173977_g25082609009178_cont_9to1_1719_7_alg».proof.Proof.Gen.ReferenceIdeal.Read
import proofs.«173977_g25082609009178_cont_9to1_1719_7_alg».proof.Proof.Spec

noncomputable section

namespace Cert.GraphConv

open Idealize.ShloMosaic Idealize.ShloMosaic.ValueIdx
open Cert.ReferenceIdeal Cert.ReferenceIdeal.Gen Cert.ReferenceIdeal.Read

/-- Relation `r`'s support at node `c`, feature `j`: row `c` of `X` against column `j` of `W r`. -/
def refSupport (X : SX.Idx → EReal) (W : SW.Idx → EReal) (r : Fin 3) (c : Fin 4096) (j : Fin 512) : EReal :=
  ∑ f : Fin 512, X (ix2 c f) * W (ix3 r f j)

/-- Relation `r`'s aggregation at `(i, j)`: row `i` of `A r` against column `j` of the support, over all 4096 nodes. -/
def refAgg (X : SX.Idx → EReal) (A : SA.Idx → EReal) (W : SW.Idx → EReal) (r : Fin 3) (i : Fin 4096) (j : Fin 512) : EReal :=
  ∑ c : Fin 4096, A (ix3 r i c) * refSupport X W r c j

/-- The reference's result: the three aggregations each divided by the constant 3.0, summed from the zero constant,
    plus the bias. The two constants are kept as the words the program spells. -/
def refForm (X : SX.Idx → EReal) (A : SA.Idx → EReal) (W : SW.Idx → EReal) (b : SB.Idx → EReal) : SX.Idx → EReal :=
  fun y => (Ideal.ofBits .f32 0x00000000#32
      + ∑ r : Fin 3, Ideal.div (refAgg X A W r (y 0) (y 1)) (Ideal.ofBits .f32 0x40400000#32))
    + b (ix1 (y 1))

/-- Relation 0's branch of the reference (slice 0 of the weights and of the adjacencies, two matrix products),
    read at `(i, j)`: the contraction over the 4096 nodes of `A 0`'s row `i` with column `j` of `X · W 0`. -/
theorem rel0_apply (x0 : (⟨S4096x512, .f32⟩ : BufTy).Contents (Elt Ideal)) (x1 : (⟨S3x4096x4096, .f32⟩ : BufTy).Contents (Elt Ideal))
    (x2 : (⟨S3x512x512, .f32⟩ : BufTy).Contents (Elt Ideal)) (i : Fin 4096) (j : Fin 512) :
    val_main_v5 (F := Ideal) x0 x1 x2 (ix2 i j) = refAgg x0 x1 x2 0 i j := by
  rw [val_main_v5_apply]
  unfold refAgg
  refine Finset.sum_congr rfl fun c _ => ?_
  have hi := i.isLt
  have hj := j.isLt
  have hc := c.isLt
  congr 1
  · rw [val_main_v4_apply, val_main_v3_apply]
    refine congrArg x1 (funext fun a => Fin.ext ?_)
    match a with
    | ⟨0, _⟩ => rfl
    | ⟨1, _⟩ => show (i.val * 4096 + c.val) / 4096 % 4096 = i.val; omega
    | ⟨2, _⟩ => show (i.val * 4096 + c.val) % 4096 = c.val; omega
  · rw [val_main_v2_apply]
    unfold refSupport
    refine Finset.sum_congr rfl fun f _ => ?_
    have hf := f.isLt
    congr 1
    · refine congrArg x0 (funext fun a => Fin.ext ?_)
      match a with
      | ⟨0, _⟩ => rfl
      | ⟨1, _⟩ => rfl
    · rw [val_main_v1_apply, val_main_v0_apply]
      refine congrArg x2 (funext fun a => Fin.ext ?_)
      match a with
      | ⟨0, _⟩ => rfl
      | ⟨1, _⟩ => show (f.val * 512 + j.val) / 512 % 512 = f.val; omega
      | ⟨2, _⟩ => show (f.val * 512 + j.val) % 512 = j.val; omega

/-- Relation 1's branch of the reference (slice 1 of the weights and of the adjacencies, two matrix products),
    read at `(i, j)`: the contraction over the 4096 nodes of `A 1`'s row `i` with column `j` of `X · W 1`. -/
theorem rel1_apply (x0 : (⟨S4096x512, .f32⟩ : BufTy).Contents (Elt Ideal)) (x1 : (⟨S3x4096x4096, .f32⟩ : BufTy).Contents (Elt Ideal))
    (x2 : (⟨S3x512x512, .f32⟩ : BufTy).Contents (Elt Ideal)) (i : Fin 4096) (j : Fin 512) :
    val_main_v11 (F := Ideal) x0 x1 x2 (ix2 i j) = refAgg x0 x1 x2 1 i j := by
  rw [val_main_v11_apply]
  unfold refAgg
  refine Finset.sum_congr rfl fun c _ => ?_
  have hi := i.isLt
  have hj := j.isLt
  have hc := c.isLt
  congr 1
  · rw [val_main_v10_apply, val_main_v9_apply]
    refine congrArg x1 (funext fun a => Fin.ext ?_)
    match a with
    | ⟨0, _⟩ => rfl
    | ⟨1, _⟩ => show (i.val * 4096 + c.val) / 4096 % 4096 = i.val; omega
    | ⟨2, _⟩ => show (i.val * 4096 + c.val) % 4096 = c.val; omega
  · rw [val_main_v8_apply]
    unfold refSupport
    refine Finset.sum_congr rfl fun f _ => ?_
    have hf := f.isLt
    congr 1
    · refine congrArg x0 (funext fun a => Fin.ext ?_)
      match a with
      | ⟨0, _⟩ => rfl
      | ⟨1, _⟩ => rfl
    · rw [val_main_v7_apply, val_main_v6_apply]
      refine congrArg x2 (funext fun a => Fin.ext ?_)
      match a with
      | ⟨0, _⟩ => rfl
      | ⟨1, _⟩ => show (f.val * 512 + j.val) / 512 % 512 = f.val; omega
      | ⟨2, _⟩ => show (f.val * 512 + j.val) % 512 = j.val; omega

/-- Relation 2's branch of the reference (slice 2 of the weights and of the adjacencies, two matrix products),
    read at `(i, j)`: the contraction over the 4096 nodes of `A 2`'s row `i` with column `j` of `X · W 2`. -/
theorem rel2_apply (x0 : (⟨S4096x512, .f32⟩ : BufTy).Contents (Elt Ideal)) (x1 : (⟨S3x4096x4096, .f32⟩ : BufTy).Contents (Elt Ideal))
    (x2 : (⟨S3x512x512, .f32⟩ : BufTy).Contents (Elt Ideal)) (i : Fin 4096) (j : Fin 512) :
    val_main_v17 (F := Ideal) x0 x1 x2 (ix2 i j) = refAgg x0 x1 x2 2 i j := by
  rw [val_main_v17_apply]
  unfold refAgg
  refine Finset.sum_congr rfl fun c _ => ?_
  have hi := i.isLt
  have hj := j.isLt
  have hc := c.isLt
  congr 1
  · rw [val_main_v16_apply, val_main_v15_apply]
    refine congrArg x1 (funext fun a => Fin.ext ?_)
    match a with
    | ⟨0, _⟩ => rfl
    | ⟨1, _⟩ => show (i.val * 4096 + c.val) / 4096 % 4096 = i.val; omega
    | ⟨2, _⟩ => show (i.val * 4096 + c.val) % 4096 = c.val; omega
  · rw [val_main_v14_apply]
    unfold refSupport
    refine Finset.sum_congr rfl fun f _ => ?_
    have hf := f.isLt
    congr 1
    · refine congrArg x0 (funext fun a => Fin.ext ?_)
      match a with
      | ⟨0, _⟩ => rfl
      | ⟨1, _⟩ => rfl
    · rw [val_main_v13_apply, val_main_v12_apply]
      refine congrArg x2 (funext fun a => Fin.ext ?_)
      match a with
      | ⟨0, _⟩ => rfl
      | ⟨1, _⟩ => show (f.val * 512 + j.val) / 512 % 512 = f.val; omega
      | ⟨2, _⟩ => show (f.val * 512 + j.val) % 512 = j.val; omega

/-- Three arrays of extent one on the last axis laid side by side on it: entry `(i, j, k)` of the result is entry
    `(i, j, 0)` of the `k`-th array. -/
theorem stack_apply (u : Fin 3 → (S4096x512x1.Idx → EReal)) (i : Fin 4096) (j : Fin 512) (k : Fin 3) :
    concatenate S4096x512x3 2 [⟨S4096x512x1, u 0⟩, ⟨S4096x512x1, u 1⟩, ⟨S4096x512x1, u 2⟩]
        concatenates_S4096x512x1_S4096x512x1_S4096x512x1_S4096x512x3_d2 (ix3 i j k)
      = u k (ix3 i j (0 : Fin 1)) :=
  concatenate_ofFn_unit_apply (t := S4096x512x3) (s₁ := S4096x512x1) 2 u
    concatenates_S4096x512x1_S4096x512x1_S4096x512x1_S4096x512x3_d2 rfl rfl (ix3 i j k) k rfl (ix3 i j (0 : Fin 1))
    (fun b => match b with
      | ⟨0, _⟩ => fun _ => rfl
      | ⟨1, _⟩ => fun _ => rfl
      | ⟨2, _⟩ => fun hb => absurd rfl hb)

/-- Entry `(i, j, 0)` of the stacked array is entry `(i, j, 0)` of its first piece. -/
theorem stacked_0 (x0 : (⟨S4096x512, .f32⟩ : BufTy).Contents (Elt Ideal)) (x1 : (⟨S3x4096x4096, .f32⟩ : BufTy).Contents (Elt Ideal))
    (x2 : (⟨S3x512x512, .f32⟩ : BufTy).Contents (Elt Ideal)) (i : Fin 4096) (j : Fin 512) :
    val_main_v21 (F := Ideal) x0 x1 x2 (ix3 i j (0 : Fin 3)) = val_main_v18 (F := Ideal) x0 x1 x2 (ix3 i j (0 : Fin 1)) := by
  unfold val_main_v21
  generalize val_main_v18 (F := Ideal) x0 x1 x2 = u0
  generalize val_main_v19 (F := Ideal) x0 x1 x2 = u1
  generalize val_main_v20 (F := Ideal) x0 x1 x2 = u2
  exact stack_apply (fun n => match n with | ⟨0, _⟩ => u0 | ⟨1, _⟩ => u1 | ⟨2, _⟩ => u2) i j 0

/-- Dropping the unit axis of `(i, j, 0)` gives `(i, j)`. -/
theorem idx18_unit (i : Fin 4096) (j : Fin 512) : idx_main_v18 (ix3 i j (0 : Fin 1)) = ix2 i j :=
  funext fun a => by match a with | ⟨0, _⟩ => rfl | ⟨1, _⟩ => rfl

/-- Entry `(i, j, 1)` of the stacked array is entry `(i, j, 0)` of its second piece. -/
theorem stacked_1 (x0 : (⟨S4096x512, .f32⟩ : BufTy).Contents (Elt Ideal)) (x1 : (⟨S3x4096x4096, .f32⟩ : BufTy).Contents (Elt Ideal))
    (x2 : (⟨S3x512x512, .f32⟩ : BufTy).Contents (Elt Ideal)) (i : Fin 4096) (j : Fin 512) :
    val_main_v21 (F := Ideal) x0 x1 x2 (ix3 i j (1 : Fin 3)) = val_main_v19 (F := Ideal) x0 x1 x2 (ix3 i j (0 : Fin 1)) := by
  unfold val_main_v21
  generalize val_main_v18 (F := Ideal) x0 x1 x2 = u0
  generalize val_main_v19 (F := Ideal) x0 x1 x2 = u1
  generalize val_main_v20 (F := Ideal) x0 x1 x2 = u2
  exact stack_apply (fun n => match n with | ⟨0, _⟩ => u0 | ⟨1, _⟩ => u1 | ⟨2, _⟩ => u2) i j 1

/-- Dropping the unit axis of `(i, j, 0)` gives `(i, j)`. -/
theorem idx19_unit (i : Fin 4096) (j : Fin 512) : idx_main_v19 (ix3 i j (0 : Fin 1)) = ix2 i j :=
  funext fun a => by match a with | ⟨0, _⟩ => rfl | ⟨1, _⟩ => rfl

/-- Entry `(i, j, 2)` of the stacked array is entry `(i, j, 0)` of its third piece. -/
theorem stacked_2 (x0 : (⟨S4096x512, .f32⟩ : BufTy).Contents (Elt Ideal)) (x1 : (⟨S3x4096x4096, .f32⟩ : BufTy).Contents (Elt Ideal))
    (x2 : (⟨S3x512x512, .f32⟩ : BufTy).Contents (Elt Ideal)) (i : Fin 4096) (j : Fin 512) :
    val_main_v21 (F := Ideal) x0 x1 x2 (ix3 i j (2 : Fin 3)) = val_main_v20 (F := Ideal) x0 x1 x2 (ix3 i j (0 : Fin 1)) := by
  unfold val_main_v21
  generalize val_main_v18 (F := Ideal) x0 x1 x2 = u0
  generalize val_main_v19 (F := Ideal) x0 x1 x2 = u1
  generalize val_main_v20 (F := Ideal) x0 x1 x2 = u2
  exact stack_apply (fun n => match n with | ⟨0, _⟩ => u0 | ⟨1, _⟩ => u1 | ⟨2, _⟩ => u2) i j 2

/-- Dropping the unit axis of `(i, j, 0)` gives `(i, j)`. -/
theorem idx20_unit (i : Fin 4096) (j : Fin 512) : idx_main_v20 (ix3 i j (0 : Fin 1)) = ix2 i j :=
  funext fun a => by match a with | ⟨0, _⟩ => rfl | ⟨1, _⟩ => rfl

/-- The stacked array at `(i, j, k)` is relation `k`'s aggregation at `(i, j)`. -/
theorem stacked_apply (x0 : (⟨S4096x512, .f32⟩ : BufTy).Contents (Elt Ideal)) (x1 : (⟨S3x4096x4096, .f32⟩ : BufTy).Contents (Elt Ideal))
    (x2 : (⟨S3x512x512, .f32⟩ : BufTy).Contents (Elt Ideal)) (i : Fin 4096) (j : Fin 512) (k : Fin 3) :
    val_main_v21 (F := Ideal) x0 x1 x2 (ix3 i j k) = refAgg x0 x1 x2 k i j := by
  match k with
  | ⟨0, _⟩ =>
    refine (stacked_0 x0 x1 x2 i j).trans ?_
    rw [val_main_v18_apply, idx18_unit]
    exact rel0_apply x0 x1 x2 i j
  | ⟨1, _⟩ =>
    refine (stacked_1 x0 x1 x2 i j).trans ?_
    rw [val_main_v19_apply, idx19_unit]
    exact rel1_apply x0 x1 x2 i j
  | ⟨2, _⟩ =>
    refine (stacked_2 x0 x1 x2 i j).trans ?_
    rw [val_main_v20_apply, idx20_unit]
    exact rel2_apply x0 x1 x2 i j

/-- The summed axis' index `k` beside `(i, j)` is `(i, j, k)`. -/
theorem idx24_eq (i : Fin 4096) (j : Fin 512) (k : Fin 3) : idx_main_v24 (ix2 i j) k = ix3 i j k :=
  funext fun a => by match a with | ⟨0, _⟩ => rfl | ⟨1, _⟩ => rfl | ⟨2, _⟩ => rfl

/-- The reference's result array is `refForm` of the four argument arrays. -/
theorem val_main_v27_eq_refForm (x0 : (⟨S4096x512, .f32⟩ : BufTy).Contents (Elt Ideal)) (x1 : (⟨S3x4096x4096, .f32⟩ : BufTy).Contents (Elt Ideal))
    (x2 : (⟨S3x512x512, .f32⟩ : BufTy).Contents (Elt Ideal)) (x3 : (⟨S512, .f32⟩ : BufTy).Contents (Elt Ideal)) :
    val_main_v27 (F := Ideal) x0 x1 x2 x3 = refForm x0 x1 x2 x3 := by
  funext y
  obtain ⟨i, j, rfl⟩ : ∃ (i : Fin 4096) (j : Fin 512), y = ix2 i j := ⟨y 0, y 1, eq_ix2 y⟩
  rw [val_main_v27_apply, val_main_v24_apply, val_main_v26_apply, val_main_v25_apply, Ideal.addf_def,
    val_main_cst_0_apply, Ideal.ofBits_def]
  show _ = (Ideal.ofBits .f32 0x00000000#32
      + ∑ r : Fin 3, Ideal.div (refAgg x0 x1 x2 r i j) (Ideal.ofBits .f32 0x40400000#32)) + x3 (ix1 j)
  congr 1
  · congr 1
    refine Finset.sum_congr rfl fun k _ => ?_
    rw [val_main_v23_apply, val_main_v22_apply, val_main_cst_apply, Ideal.hostDivf_def, Ideal.ofBits_def, idx24_eq,
      stacked_apply]
  · exact congrArg x3 (funext fun a => Fin.ext (by match a with | ⟨0, _⟩ => rfl))

end Cert.GraphConv

end
-- ==== Proof.Algebra.lean ====
/-
  The reference's grouping and the kernel's grouping of the graph convolution agree on real inputs.

  The reference divides each relation's aggregation `∑ c, A (r, i, c) * ∑ f, X (c, f) * W (r, f, j)` by 3 and sums the
  three quotients before adding the bias; the kernel multiplies every weight by 1/3 first, contracts the 4096 nodes as
  a lower and an upper half, and adds the bias after relation 0. Over the reals both are
  `(∑ r, aggregation r) / 3 + b j`: the factor 1/3 moves out of both finite sums (distributivity), the two halves
  of the node range make up the whole range, and addition is commutative and associative. Over the extended reals
  distributivity needs finite entries, so every entry is first written as the image of a real number and the
  coercion is pushed outward through products and finite sums.
-/
import proofs.«173977_g25082609009178_cont_9to1_1719_7_alg».proof.Proof.RefValue
import Idealize.ShloMosaic.PureOps.Ideal.Laws

noncomputable section

namespace Cert.GraphConv

open Idealize.ShloMosaic Idealize.ShloMosaic.ValueIdx

/-- The word of `3.0` denotes the real number 3. -/
theorem ofBits_three : Ideal.ofBits .f32 0x40400000#32 = ((3 : ℝ) : EReal) := by
  simp [Ideal.ofBits, Ideal.ieee, -EReal.coe_mul]; norm_num

/-- The coercion of the reals into the extended reals commutes with finite sums. -/
theorem coe_sum {ι : Type*} (s : Finset ι) (f : ι → ℝ) : ((∑ i ∈ s, f i : ℝ) : EReal) = ∑ i ∈ s, (f i : EReal) := by
  classical
  refine Finset.induction_on s (by simp) fun a s ha ih => ?_
  rw [Finset.sum_insert ha, Finset.sum_insert ha, EReal.coe_add, ih]

/-- A sum over the 4096 nodes is the sum over the lower half plus the sum over the upper half. -/
theorem sum_halves (g : Fin 4096 → ℝ) : (∑ c : Fin 2048, g (lo c)) + ∑ c : Fin 2048, g (hi c) = ∑ c : Fin 4096, g c :=
  (Fin.sum_univ_add (a := 2048) (b := 2048) g).symm

/-- The real support: row `c` of the features against column `j` of relation `r`'s weights. -/
def supR (x : SX.Idx → ℝ) (w : SW.Idx → ℝ) (r : Fin 3) (c : Fin 4096) (j : Fin 512) : ℝ :=
  ∑ f : Fin 512, x (ix2 c f) * w (ix3 r f j)

/-- The real aggregation: row `i` of relation `r`'s adjacency against column `j` of its support. -/
def aggR (x : SX.Idx → ℝ) (a : SA.Idx → ℝ) (w : SW.Idx → ℝ) (r : Fin 3) (i : Fin 4096) (j : Fin 512) : ℝ :=
  ∑ c : Fin 4096, a (ix3 r i c) * supR x w r c j

section
variable {X : SX.Idx → EReal} {A : SA.Idx → EReal} {W : SW.Idx → EReal}
  {x : SX.Idx → ℝ} {a : SA.Idx → ℝ} {w : SW.Idx → ℝ}

/-- On real entries the reference's support is the real support. -/
theorem refSupport_coe (hx : ∀ i, X i = (x i : EReal)) (hw : ∀ i, W i = (w i : EReal)) (r : Fin 3) (c : Fin 4096)
    (j : Fin 512) : refSupport X W r c j = ((supR x w r c j : ℝ) : EReal) := by
  unfold refSupport supR
  rw [coe_sum]
  refine Finset.sum_congr rfl fun f _ => ?_
  rw [hx, hw, EReal.coe_mul]

/-- On real entries the reference's aggregation is the real aggregation. -/
theorem refAgg_coe (hx : ∀ i, X i = (x i : EReal)) (ha : ∀ i, A i = (a i : EReal)) (hw : ∀ i, W i = (w i : EReal))
    (r : Fin 3) (i : Fin 4096) (j : Fin 512) : refAgg X A W r i j = ((aggR x a w r i j : ℝ) : EReal) := by
  unfold refAgg aggR
  rw [coe_sum]
  refine Finset.sum_congr rfl fun c _ => ?_
  rw [ha, refSupport_coe hx hw, EReal.coe_mul]

/-- On real entries the kernel's support, with 1/3 folded into the weights, is a third of the real support. -/
theorem support_coe (hx : ∀ i, X i = (x i : EReal)) (hw : ∀ i, W i = (w i : EReal)) (r : Fin 3) (c : Fin 4096)
    (j : Fin 512) : support X W r c j = ((supR x w r c j * (1 / 3) : ℝ) : EReal) := by
  unfold support supR
  rw [Finset.sum_mul, coe_sum]
  refine Finset.sum_congr rfl fun f _ => ?_
  rw [hx, hw, ← EReal.coe_mul, ← EReal.coe_mul, mul_assoc]

/-- On real entries the kernel's aggregation, lower half plus upper half, is a third of the real aggregation. -/
theorem agg_coe (hx : ∀ i, X i = (x i : EReal)) (ha : ∀ i, A i = (a i : EReal)) (hw : ∀ i, W i = (w i : EReal))
    (r : Fin 3) (i : Fin 4096) (j : Fin 512) : agg X A W r i j = ((aggR x a w r i j * (1 / 3) : ℝ) : EReal) := by
  have half : ∀ e : Fin 2048 → Fin 4096, (∑ c : Fin 2048, A (ix3 r i (e c)) * support X W r (e c) j)
      = ((∑ c : Fin 2048, a (ix3 r i (e c)) * (supR x w r (e c) j * (1 / 3)) : ℝ) : EReal) := fun e => by
    rw [coe_sum]
    refine Finset.sum_congr rfl fun c _ => ?_
    rw [ha, support_coe hx hw, ← EReal.coe_mul]
  unfold agg
  rw [half lo, half hi, ← EReal.coe_add, sum_halves fun c => a (ix3 r i c) * (supR x w r c j * (1 / 3))]
  unfold aggR
  rw [Finset.sum_mul]
  refine congrArg _ (Finset.sum_congr rfl fun c _ => ?_)
  ring

end

/-- For finite inputs the reference's result and the kernel's result are the same array. -/
theorem refForm_eq_kernelForm (X : SX.Idx → EReal) (A : SA.Idx → EReal) (W : SW.Idx → EReal) (b : SB.Idx → EReal)
    (hX : ∀ i, ∃ r : ℝ, X i = (r : EReal)) (hA : ∀ i, ∃ r : ℝ, A i = (r : EReal))
    (hW : ∀ i, ∃ r : ℝ, W i = (r : EReal)) (hb : ∀ i, ∃ r : ℝ, b i = (r : EReal)) :
    refForm X A W b = kernelForm X A W b := by
  choose x hx using hX
  choose a ha using hA
  choose w hw using hW
  choose β hβ using hb
  funext y
  obtain ⟨i, j, rfl⟩ : ∃ (i : Fin 4096) (j : Fin 512), y = ix2 i j := ⟨y 0, y 1, eq_ix2 y⟩
  show (Ideal.ofBits .f32 0x00000000#32
        + ∑ r : Fin 3, Ideal.div (refAgg X A W r i j) (Ideal.ofBits .f32 0x40400000#32)) + b (ix1 j)
      = ((agg X A W 0 i j + b (ix1 j)) + agg X A W 1 i j) + agg X A W 2 i j
  rw [Fin.sum_univ_three, refAgg_coe hx ha hw, refAgg_coe hx ha hw, refAgg_coe hx ha hw, agg_coe hx ha hw,
    agg_coe hx ha hw, agg_coe hx ha hw, ofBits_three, Ideal.div_coe (by norm_num), Ideal.div_coe (by norm_num),
    Ideal.div_coe (by norm_num), Ideal.ofBits_zero_f32, hβ, zero_add]
  simp only [← EReal.coe_mul, ← EReal.coe_add]
  refine congrArg _ ?_
  ring

end Cert.GraphConv

end
-- ==== Proof.lean ====
/-
  A relational graph convolution over 4096 nodes, 512 features and 3 relations: out = (1/3) ∑ r, A r · (X · W r) + b.

  The kernel computes, at its first grid point, the three supports X · (W r · 1/3) into a scratch buffer, band r of
  4096 rows for relation r; then for each of 8 blocks of 512 rows it walks the three relations, contracting the block's
  rows of A r with band r in two halves of 2048 columns and accumulating in the output block: set to the first sum plus
  the bias row, added to twice, written back after the third. The reference forms A r · (X · W r) per relation, divides
  the three by 3, sums them and adds the bias.

  At the ideal values both are polynomials in the entries; they agree because the entries are finite (the division by
  3 distributes over the sums, the third is the exact 1/3, and a 4096-term sum is its two halves), which is where the
  precondition is used. The adjacency array is read through two windows, so the region's entry lends each half of its
  share; each program's run leaves the four arguments as launched.
-/
import proofs.«173977_g25082609009178_cont_9to1_1719_7_alg».proof.Defs
import proofs.«173977_g25082609009178_cont_9to1_1719_7_alg».proof.Proof.Gen.Kernel
import proofs.«173977_g25082609009178_cont_9to1_1719_7_alg».proof.Proof.Gen.KernelIdeal
import proofs.«173977_g25082609009178_cont_9to1_1719_7_alg».proof.Proof.Gen.ReferenceIdeal
import proofs.«173977_g25082609009178_cont_9to1_1719_7_alg».proof.Proof.Gen.ReferenceIdeal.Run
import proofs.«173977_g25082609009178_cont_9to1_1719_7_alg».proof.Proof.Gen.Pre_finite_inputs
import proofs.«173977_g25082609009178_cont_9to1_1719_7_alg».proof.Proof.BitsLaunch
import proofs.«173977_g25082609009178_cont_9to1_1719_7_alg».proof.Proof.IdealValC
import proofs.«173977_g25082609009178_cont_9to1_1719_7_alg».proof.Proof.Finite
import proofs.«173977_g25082609009178_cont_9to1_1719_7_alg».proof.Proof.Algebra
import Idealize.ShloMosaic.Adequacy
import Idealize.ShloMosaic.Init

noncomputable section

namespace Cert.Proof

open Idealize.ShloMosaic Idealize.SL.Sem

/-- The kernel as printed runs to the end and leaves its arguments unchanged. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference is a straight line of host operations. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization, at its three sites: the scale constant denotes the rational 1/3. -/
theorem preserves : Cert.preserves_Kernel_KernelIdeal :=
  ⟨IdealRules.named_const.statement Cert.KernelIdeal.κ "inv_3" .f32 0x3EAAAAAB#32 ((1 / 3 : ℝ) : EReal) rfl,
   IdealRules.named_const.statement Cert.KernelIdeal.κ "inv_3" .f32 0x3EAAAAAB#32 ((1 / 3 : ℝ) : EReal) rfl,
   IdealRules.named_const.statement Cert.KernelIdeal.κ "inv_3" .f32 0x3EAAAAAB#32 ((1 / 3 : ℝ) : EReal) rfl⟩

/-- Both programs end with the same array: the kernel's accumulation order of the scaled supports' aggregations, which
    for finite entries is the reference's mean of the three aggregations plus the bias. -/
theorem algebraic : Cert.algebraic_KernelIdeal_ReferenceIdeal := by
  intro m ρ m' ρ' hpre hagree
  refine ⟨fun c => Cert.KernelIdeal.Hand.G m c, Cert.KernelIdeal.Hand.run_value m ρ, ?_⟩
  refine (θ_run Cert.ReferenceIdeal.defs _ _).mono (fun _ h c => ⟨?_, (h c).2⟩)
    (Cert.ReferenceIdeal.Value.run (F := Ideal) m' ρ')
  obtain ⟨h0, h1, h2, h3⟩ := Cert.GraphConv.entries_real _ _ _ _ (hpre c)
  rw [(h c).1, Cert.ReferenceIdeal.Read.val_main_v27_eq, Cert.GraphConv.val_main_v27_eq_refForm,
    (hagree c).1, (hagree c).2.1, (hagree c).2.2.1, (hagree c).2.2.2,
    Cert.GraphConv.refForm_eq_kernelForm _ _ _ _ h0 h1 h2 h3]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
